-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S16x32 : Shape := ⟨2, ![16, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S32x1 .f32) (main_arg9 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S16 .f32) (main_arg6 : FVec F S16x32 .f32) (main_arg7 : FVec F S32 .f32) (main_arg8 : FVec F S32x1 .f32) (main_arg9 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x32 .f32 := Host.absf main_arg6
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x512 .f32) (main_arg1 : IVec S2x3200000 32) (main_arg2 : FVec F S512x16 .f32) (main_arg3 : FVec F S16 .f32) (main_arg4 : FVec F S16x16 .f32) (main_arg5 : FVec F S16 .f32) (main_arg6 : FVec F S16x32 .f32) (main_arg7 : FVec F S32 .f32) (main_arg8 : FVec F S32x1 .f32) (main_arg9 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_arg8 main_arg9 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S16x32 : Shape := ⟨2, ![16, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S104000x512 : Shape := ⟨2, ![104000, 512]⟩
abbrev S104000x1 : Shape := ⟨2, ![104000, 1]⟩
abbrev S104000x16 : Shape := ⟨2, ![104000, 16]⟩
abbrev S8000x512 : Shape := ⟨2, ![8000, 512]⟩
abbrev S8000x1 : Shape := ⟨2, ![8000, 1]⟩
abbrev S8000x16 : Shape := ⟨2, ![8000, 16]⟩
abbrev S100000x16 : Shape := ⟨2, ![100000, 16]⟩
abbrev S3300000x16 : Shape := ⟨2, ![3300000, 16]⟩
abbrev S1x16 : Shape := ⟨2, ![1, 16]⟩
abbrev S1x32 : Shape := ⟨2, ![1, 32]⟩
abbrev S1x1 : Shape := ⟨2, ![1, 1]⟩
abbrev S10000x16 : Shape := ⟨2, ![10000, 16]⟩
abbrev S10000x1 : Shape := ⟨2, ![10000, 1]⟩
abbrev S10000x32 : Shape := ⟨2, ![10000, 32]⟩

abbrev nBuf : Space → Nat
  | .hbm => 60
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S100000, .i32⟩
  | .hbm, ⟨15, _⟩ => ⟨S3300000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S_, .i32⟩
  | .hbm, ⟨35, _⟩ => ⟨S_, .f32⟩
  | .hbm, ⟨36, _⟩ => ⟨S104000x512, .f32⟩
  | .hbm, ⟨37, _⟩ => ⟨S_, .i32⟩
  | .hbm, ⟨38, _⟩ => ⟨S_, .f32⟩
  | .hbm, ⟨39, _⟩ => ⟨S104000x1, .f32⟩
  | .hbm, ⟨40, _⟩ => ⟨S104000x16, .f32⟩
  | .hbm, ⟨41, _⟩ => ⟨S100000x16, .f32⟩
  | .hbm, ⟨42, _⟩ => ⟨S_, .i32⟩
  | .hbm, ⟨43, _⟩ => ⟨S3300000, .i32⟩
  | .hbm, ⟨44, _⟩ => ⟨S3300000, .i1⟩
  | .hbm, ⟨45, _⟩ => ⟨S_, .i32⟩
  | .hbm, ⟨46, _⟩ => ⟨S3300000, .i32⟩
  | .hbm, ⟨47, _⟩ => ⟨S3300000, .i32⟩
  | .hbm, ⟨48, _⟩ => ⟨S3300000, .i32⟩
  | .hbm, ⟨49, _⟩ => ⟨S3300000x1, .i32⟩
  | .hbm, ⟨50, _⟩ => ⟨S3300000x16, .f32⟩
  | .hbm, ⟨51, _⟩ => ⟨S_, .f32⟩
  | .hbm, ⟨52, _⟩ => ⟨S100000x16, .f32⟩
  | .hbm, ⟨53, _⟩ => ⟨S3300000x1, .i32⟩
  | .hbm, ⟨54, _⟩ => ⟨S100000x16, .f32⟩
  | .hbm, ⟨55, _⟩ => ⟨S1x16, .f32⟩
  | .hbm, ⟨56, _⟩ => ⟨S1x16, .f32⟩
  | .hbm, ⟨57, _⟩ => ⟨S1x32, .f32⟩
  | .hbm, ⟨58, _⟩ => ⟨S1x1, .f32⟩
  | .hbm, ⟨59, _⟩ => ⟨S100000x1, .f32⟩
  | .local _ .vmem, ⟨0, _⟩ => ⟨S8000x512, .f32⟩
  | .local _ .vmem, ⟨1, _⟩ => ⟨S8000x512, .f32⟩
  | .local _ .vmem, ⟨2, _⟩ => ⟨S512x16, .f32⟩
  | .local _ .vmem, ⟨3, _⟩ => ⟨S8000x1, .f32⟩
  | .local _ .vmem, ⟨4, _⟩ => ⟨S8000x1, .f32⟩
  | .local _ .vmem, ⟨5, _⟩ => ⟨S8000x16, .f32⟩
  | .local _ .vmem, ⟨6, _⟩ => ⟨S8000x16, .f32⟩
  | .local _ .vmem, ⟨7, _⟩ => ⟨S10000x16, .f32⟩
  | .local _ .vmem, ⟨8, _⟩ => ⟨S10000x16, .f32⟩
  | .local _ .vmem, ⟨9, _⟩ => ⟨S10000x1, .f32⟩
  | .local _ .vmem, ⟨10, _⟩ => ⟨S10000x1, .f32⟩
  | .local _ .vmem, ⟨11, _⟩ => ⟨S1x16, .f32⟩
  | .local _ .vmem, ⟨12, _⟩ => ⟨S16x16, .f32⟩
  | .local _ .vmem, ⟨13, _⟩ => ⟨S1x16, .f32⟩
  | .local _ .vmem, ⟨14, _⟩ => ⟨S16x32, .f32⟩
  | .local _ .vmem, ⟨15, _⟩ => ⟨S1x32, .f32⟩
  | .local _ .vmem, ⟨16, _⟩ => ⟨S32x1, .f32⟩
  | .local _ .vmem, ⟨17, _⟩ => ⟨S1x1, .f32⟩
  | .local _ .vmem, ⟨18, _⟩ => ⟨S10000x1, .f32⟩
  | .local _ .vmem, ⟨19, _⟩ => ⟨S10000x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_call1_v0 : Ref sig .tc := ⟨.hbm, 35, rfl⟩
abbrev main_v17 : Ref sig .tc := ⟨.hbm, 36, rfl⟩
abbrev main_c_4 : Ref sig .tc := ⟨.hbm, 37, rfl⟩
abbrev main_call2_v0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_c_6 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_7 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  pads_S100000x512_S104000x512_040000_000 : S100000x512.Pads (![0, 0] : Fin 2 → Nat) ![4000, 0] ![0, 0] S104000x512
  h_S_ : 0 < S_.numel
  pads_S100000x1_S104000x1_040000_000 : S100000x1.Pads (![0, 0] : Fin 2 → Nat) ![4000, 0] ![0, 0] S104000x1
  inb_S8000x512_S8000x512_0_0 : ∀ a, (![0, 0] : Fin 2 → Nat) a + S8000x512.size a ≤ S8000x512.size a
  h_S8000x512 : 0 < S8000x512.numel
  shapeCasts_S8000x512_S8000x512 : S8000x512.ShapeCasts S8000x512
  inb_S512x16_S512x16_0_0 : ∀ a, (![0, 0] : Fin 2 → Nat) a + S512x16.size a ≤ S512x16.size a
  h_S512x16 : 0 < S512x16.numel
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x16 : S8000x1.Broadcasts S8000x16
  inb_S8000x16_S8000x16_0_0 : ∀ a, (![0, 0] : Fin 2 → Nat) a + S8000x16.size a ≤ S8000x16.size a
  h_S8000x16 : 0 < S8000x16.numel
  slices_S104000x16_S100000x16_0_0 : S104000x16.Slices ![0, 0] S100000x16
  bcast_S_S100000x16 : S_.BroadcastsInDim S100000x16 (![] : Fin 0 → Fin S100000x16.rank)
  shapeCasts_S16_S1x16 : S16.ShapeCasts S1x16
  shapeCasts_S32_S1x32 : S32.ShapeCasts S1x32
  shapeCasts_S1_S1x1 : S1.ShapeCasts S1x1
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x16 : S10000x1.Broadcasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S3300000x1_S3300000_n_0_0_1_wf : ScatterDims.WF S100000 S3300000x1 S3300000 [] [0] [0] 1
  dot_S8000x512_S512x16_S8000x16_1_0_0_1_n_n_wf : DotDims.WF S8000x512 S512x16 S8000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x16_S10000x16_1_0_0_1_n_n_wf : DotDims.WF S10000x16 S16x16 S10000x16 [1] [0] [0] [1] [] []
  dot_S10000x16_S16x32_S10000x32_1_0_0_1_n_n_wf : DotDims.WF S10000x16 S16x32 S10000x32 [1] [0] [0] [1] [] []
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x512.size a ≤ S104000x512.size a
  hwx0_0 : ∀ i : grid0.Coords, EltTy.bits .f32 = 32 ∨ (Rect.block (s := S104000x512) S8000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S104000x1.size a
  hwx0_2 : ∀ i : grid0.Coords, EltTy.bits .f32 = 32 ∨ (Rect.block (s := S104000x1) S8000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x16.size a ≤ S104000x16.size a
  hwx0_3 : ∀ i : grid0.Coords, EltTy.bits .f32 = 32 ∨ (Rect.block (s := S104000x16) S8000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x32.size a ≤ S16x32.size a
  hwx1_5 : ∀ i : grid1.Coords, EltTy.bits .f32 = 32 ∨ (Rect.block (s := S16x32) S16x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x1.size a ≤ S32x1.size a
  hwx1_7 : ∀ i : grid1.Coords, EltTy.bits .f32 = 32 ∨ (Rect.block (s := S32x1) S32x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x1.size a ≤ S100000x1.size a
  hwx1_9 : ∀ i : grid1.Coords, EltTy.bits .f32 = 32 ∨ (Rect.block (s := S100000x1) S10000x1.size (cc1_transform_9 i) (hinb1_9 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S8000x512_S512x16_S8000x16_1_0_0_1_n_n : DotDims S8000x512 S512x16 S8000x16 where
  lhsContracting := [1]
  rhsContracting := [0]
  lhsNonContracting := [0]
  rhsNonContracting := [1]
  lhsBatch := []
  rhsBatch := []
  wf := dot_S8000x512_S512x16_S8000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_v17) S8000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S8000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S16x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S32x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v35) S10000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S16x32 : Shape := ⟨2, ![16, 32]⟩
abbrev S32 : Shape := ⟨1, ![32]⟩
abbrev S32x1 : Shape := ⟨2, ![32, 1]⟩
abbrev S1 : Shape := ⟨1, ![1]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x32 : Shape := ⟨2, ![100000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S100000x16, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000x16, .f32⟩
  | .hbm, ⟨62, _⟩ => ⟨S3300000x1, .f32⟩
  | .hbm, ⟨63, _⟩ => ⟨S3300000x16, .f32⟩
  | .hbm, ⟨64, _⟩ => ⟨S3300000x16, .f32⟩
  | .hbm, ⟨65, _⟩ => ⟨S_, .f32⟩
  | .hbm, ⟨66, _⟩ => ⟨S100000x16, .f32⟩
  | .hbm, ⟨67, _⟩ => ⟨S3300000x1, .i32⟩
  | .hbm, ⟨68, _⟩ => ⟨S100000x16, .f32⟩
  | .hbm, ⟨69, _⟩ => ⟨S1x16, .f32⟩
  | .hbm, ⟨70, _⟩ => ⟨S100000x16, .f32⟩
  | .hbm, ⟨71, _⟩ => ⟨S100000x16, .f32⟩
  | .hbm, ⟨72, _⟩ => ⟨S_, .f32⟩
  | .hbm, ⟨73, _⟩ => ⟨S100000x16, .f32⟩
  | .hbm, ⟨74, _⟩ => ⟨S100000x16, .f32⟩
  | .hbm, ⟨75, _⟩ => ⟨S100000x16, .f32⟩
  | .hbm, ⟨76, _⟩ => ⟨S1x16, .f32⟩
  | .hbm, ⟨77, _⟩ => ⟨S100000x16, .f32⟩
  | .hbm, ⟨78, _⟩ => ⟨S100000x16, .f32⟩
  | .hbm, ⟨79, _⟩ => ⟨S_, .f32⟩
  | .hbm, ⟨80, _⟩ => ⟨S100000x16, .f32⟩
  | .hbm, ⟨81, _⟩ => ⟨S100000x16, .f32⟩
  | .hbm, ⟨82, _⟩ => ⟨S100000x32, .f32⟩
  | .hbm, ⟨83, _⟩ => ⟨S1x32, .f32⟩
  | .hbm, ⟨84, _⟩ => ⟨S100000x32, .f32⟩
  | .hbm, ⟨85, _⟩ => ⟨S100000x32, .f32⟩
  | .hbm, ⟨86, _⟩ => ⟨S_, .f32⟩
  | .hbm, ⟨87, _⟩ => ⟨S100000x32, .f32⟩
  | .hbm, ⟨88, _⟩ => ⟨S100000x32, .f32⟩
  | .hbm, ⟨89, _⟩ => ⟨S100000x1, .f32⟩
  | .hbm, ⟨90, _⟩ => ⟨S1x1, .f32⟩
  | .hbm, ⟨91, _⟩ => ⟨S100000x1, .f32⟩
  | .hbm, ⟨92, _⟩ => ⟨S100000x1, .f32⟩
  | .hbm, ⟨93, _⟩ => ⟨S100000x1, .f32⟩
  | .hbm, ⟨94, _⟩ => ⟨S100000x1, .f32⟩
  | .hbm, ⟨95, _⟩ => ⟨S_, .f32⟩
  | .hbm, ⟨96, _⟩ => ⟨S100000x1, .f32⟩
  | .hbm, ⟨97, _⟩ => ⟨S100000x1, .f32⟩
  | .hbm, ⟨98, _⟩ => ⟨S_, .f32⟩
  | .hbm, ⟨99, _⟩ => ⟨S100000x1, .f32⟩
  | .hbm, ⟨100, _⟩ => ⟨S100000x1, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call1_cst : Ref sig .tc := ⟨.hbm, 72, rfl⟩
abbrev main_call1_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call2_cst : Ref sig .tc := ⟨.hbm, 79, rfl⟩
abbrev main_call2_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call3_cst : Ref sig .tc := ⟨.hbm, 86, rfl⟩
abbrev main_call3_v0 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_10 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  dot_S100000x16_S16x32_S100000x32_1_0_0_1_n_n_wf : DotDims.WF S100000x16 S16x32 S100000x32 [1] [0] [0] [1] [] []
  dot_S100000x32_S32x1_S100000x1_1_0_0_1_n_n_wf : DotDims.WF S100000x32 S32x1 S100000x1 [1] [0] [0] [1] [] []

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KernelRun.lean ====
/-
  The idealized kernel program's run with its RESULT kept.

  The program is nine segments: six stretches of host operations, the projection kernel's region, one more stretch,
  the multilayer-perceptron kernel's region. Launched over those segments from any memory, every weakly fair execution
  terminates without a fault, and at the end every buffer that outlives the regions holds what the fold through the
  segments says (`Gen.W9`): a stretch rewrites its results, a region leaves each output array at what its grid
  points wrote back. The frame claim reads only the ten argument buffers off that final state; here the result buffer
  is read off it as well, next to the arguments.
-/
import proofs.«108288_j38371237823055_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every buffer that outlives the
    regions at the fold's final contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The result buffer and the ten argument buffers at the end of the run: the result at the fold's final contents, the
    arguments as launched. -/
theorem run_result : θ_run defs (onTc (τ := τ) (main (F := F))) ⟨m, fun _ => 0, ρ⟩ (fun r => ∀ c : Dev nD,
      r.2.mem ((c.tc : Thread nD τ).loc main_v35) = W9 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v35 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)
    (run_all m ρ)

end Cert.KernelIdeal.Whole

end
-- ==== Proof.LibHostCalls.lean ====
/-
  Values passed through a called function's buffers, and the host's exponential and logarithm read at an entry.

  A host function that the program calls (an outlined relu, softmax, log-softmax …) runs its operations on buffers
  typed by the tensor values they hold: every value written into such a buffer is carried along the equation
  "the buffer's type is the value's type", and carried back when the next operation reads it. The two transports
  cancel: what is read back is what was written (`ofBuf_toBuf`). Rewriting with this lemma first leaves the called
  function's operations applied to one another directly, as the program's own top-level operations are.

  Over the extended reals the host's exponential and logarithm act entry by entry (`hostExp_apply`, `hostLog_apply`):
  stated as equations to rewrite with, so that a goal is never compared against the logarithm by unfolding it.
-/
import Idealize.ShloMosaic.Lib.StableHlo
import Idealize.ShloMosaic.PureOps.Ideal

noncomputable section

namespace Cert.Lib.HostCalls

open Idealize.ShloMosaic Idealize.ShloMosaic.StableHlo

/-- A value carried into a called function's buffer and read back out of it is the value. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- The host's logarithm at an entry. -/
theorem hostLog_apply {s : Shape} {φ : FTy} (x : FVec Ideal s φ) (i : s.Idx) : Host.log x i = Ideal.log (x i) := rfl

/-- The host's exponential at an entry. -/
theorem hostExp_apply {s : Shape} {φ : FTy} (x : FVec Ideal s φ) (i : s.Idx) : Host.exp x i = Ideal.exp (x i) := rfl

end Cert.Lib.HostCalls

end
-- ==== Proof.KernelHost.lean ====
/-
  The kernel program's host stretches, read in the reference's vocabulary.

  Around its two kernels the program computes on the host what the reference computes: the edge lists with the
  self-loops appended, the degrees by a scatter of ones, the weights `deg^(-1/2)` guarded at zero, the wrapped source
  words. Each such buffer, walked back through the stretches of host operations to the launch memory, is the very term
  the reference's read-at-an-index module names (`val_main_v…`), of the same argument arrays. The two padded inputs of
  the projection kernel, read at a row below 100000, are the unpadded arrays there.
-/
import proofs.«108288_j38371237823055_2_alg».proof.Proof.Gen.KernelIdeal.Frame
import proofs.«108288_j38371237823055_2_alg».proof.Proof.ReadP
import Idealize.ShloMosaic.Lib.StableHlo.Run
import Idealize.ShloMosaic.Lib.Tactic
import Idealize.ShloMosaic.PureOps.Ideal
import proofs.«108288_j38371237823055_2_alg».proof.Proof.LibHostCalls

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

set_option maxHeartbeats 4000000 in
/-- The target words (given edges, then one self-loop per node) as the second stretch finds them. -/
theorem col_words (c : Dev nD) :
    W7 m ρ c (Proc.devRef .tc main_v6) = Cert.ReferenceIdeal.ReadP.val_main_v7 (F := Ideal) (m ((c.tc : Thread nD τ).loc main_arg1)) := by
  rw [W7_of_ne m ρ c main_v6 (by decide)]
  show StableHlo.after hostOps0_5 (W5 m ρ c) (Proc.devRef .tc main_v6) = _
  after_results
  rfl

set_option maxHeartbeats 4000000 in
/-- The source words (given edges, then one self-loop per node) as the second stretch finds them. -/
theorem row_words (c : Dev nD) :
    W7 m ρ c (Proc.devRef .tc main_v5) = Cert.ReferenceIdeal.ReadP.val_main_v4 (F := Ideal) (m ((c.tc : Thread nD τ).loc main_arg1)) := by
  rw [W7_of_ne m ρ c main_v5 (by decide)]
  show StableHlo.after hostOps0_5 (W5 m ρ c) (Proc.devRef .tc main_v5) = _
  after_results
  rfl

set_option maxHeartbeats 4000000 in
/-- Argument 3 is untouched by the stretches before and the projection kernel's region. -/
theorem arg3_at_second_stretch (c : Dev nD) :
    W7 m ρ c (Proc.devRef .tc main_arg3) = m ((c.tc : Thread nD τ).loc main_arg3) := by
  rw [W7_of_ne m ρ c main_arg3 (by decide)]
  show StableHlo.after hostOps0_5 (W5 m ρ c) (Proc.devRef .tc main_arg3) = _
  after_results

set_option maxHeartbeats 4000000 in
/-- Argument 4 is untouched by the stretches before and the projection kernel's region. -/
theorem arg4_at_second_stretch (c : Dev nD) :
    W7 m ρ c (Proc.devRef .tc main_arg4) = m ((c.tc : Thread nD τ).loc main_arg4) := by
  rw [W7_of_ne m ρ c main_arg4 (by decide)]
  show StableHlo.after hostOps0_5 (W5 m ρ c) (Proc.devRef .tc main_arg4) = _
  after_results

set_option maxHeartbeats 4000000 in
/-- Argument 5 is untouched by the stretches before and the projection kernel's region. -/
theorem arg5_at_second_stretch (c : Dev nD) :
    W7 m ρ c (Proc.devRef .tc main_arg5) = m ((c.tc : Thread nD τ).loc main_arg5) := by
  rw [W7_of_ne m ρ c main_arg5 (by decide)]
  show StableHlo.after hostOps0_5 (W5 m ρ c) (Proc.devRef .tc main_arg5) = _
  after_results

set_option maxHeartbeats 4000000 in
/-- Argument 6 is untouched by the stretches before and the projection kernel's region. -/
theorem arg6_at_second_stretch (c : Dev nD) :
    W7 m ρ c (Proc.devRef .tc main_arg6) = m ((c.tc : Thread nD τ).loc main_arg6) := by
  rw [W7_of_ne m ρ c main_arg6 (by decide)]
  show StableHlo.after hostOps0_5 (W5 m ρ c) (Proc.devRef .tc main_arg6) = _
  after_results

set_option maxHeartbeats 4000000 in
/-- Argument 7 is untouched by the stretches before and the projection kernel's region. -/
theorem arg7_at_second_stretch (c : Dev nD) :
    W7 m ρ c (Proc.devRef .tc main_arg7) = m ((c.tc : Thread nD τ).loc main_arg7) := by
  rw [W7_of_ne m ρ c main_arg7 (by decide)]
  show StableHlo.after hostOps0_5 (W5 m ρ c) (Proc.devRef .tc main_arg7) = _
  after_results

set_option maxHeartbeats 4000000 in
/-- Argument 8 is untouched by the stretches before and the projection kernel's region. -/
theorem arg8_at_second_stretch (c : Dev nD) :
    W7 m ρ c (Proc.devRef .tc main_arg8) = m ((c.tc : Thread nD τ).loc main_arg8) := by
  rw [W7_of_ne m ρ c main_arg8 (by decide)]
  show StableHlo.after hostOps0_5 (W5 m ρ c) (Proc.devRef .tc main_arg8) = _
  after_results

set_option maxHeartbeats 4000000 in
/-- Argument 9 is untouched by the stretches before and the projection kernel's region. -/
theorem arg9_at_second_stretch (c : Dev nD) :
    W7 m ρ c (Proc.devRef .tc main_arg9) = m ((c.tc : Thread nD τ).loc main_arg9) := by
  rw [W7_of_ne m ρ c main_arg9 (by decide)]
  show StableHlo.after hostOps0_5 (W5 m ρ c) (Proc.devRef .tc main_arg9) = _
  after_results

set_option maxHeartbeats 4000000 in
/-- Argument 4 as the head kernel's region finds it. -/
theorem arg4_at_head (c : Dev nD) :
    W8 m ρ c (Proc.devRef .tc main_arg4) = m ((c.tc : Thread nD τ).loc main_arg4) := by
  show StableHlo.after hostOps1 (W7 m ρ c) (Proc.devRef .tc main_arg4) = _
  after_results
  exact arg4_at_second_stretch m ρ c

set_option maxHeartbeats 4000000 in
/-- Argument 6 as the head kernel's region finds it. -/
theorem arg6_at_head (c : Dev nD) :
    W8 m ρ c (Proc.devRef .tc main_arg6) = m ((c.tc : Thread nD τ).loc main_arg6) := by
  show StableHlo.after hostOps1 (W7 m ρ c) (Proc.devRef .tc main_arg6) = _
  after_results
  exact arg6_at_second_stretch m ρ c

set_option maxHeartbeats 4000000 in
/-- Argument 8 as the head kernel's region finds it. -/
theorem arg8_at_head (c : Dev nD) :
    W8 m ρ c (Proc.devRef .tc main_arg8) = m ((c.tc : Thread nD τ).loc main_arg8) := by
  show StableHlo.after hostOps1 (W7 m ρ c) (Proc.devRef .tc main_arg8) = _
  after_results
  exact arg8_at_second_stretch m ρ c

set_option maxHeartbeats 4000000 in
/-- The bias vector of argument 3 viewed as a row, as the head kernel's region finds it. -/
theorem main_v31_at_head (c : Dev nD) :
    W8 m ρ c (Proc.devRef .tc main_v31) = shapeCast S1x16 (m ((c.tc : Thread nD τ).loc main_arg3)) shapeCasts_S16_S1x16 := by
  show StableHlo.after hostOps1 (W7 m ρ c) (Proc.devRef .tc main_v31) = _
  after_results
  rw [arg3_at_second_stretch m ρ c]
  rfl

set_option maxHeartbeats 4000000 in
/-- The bias vector of argument 5 viewed as a row, as the head kernel's region finds it. -/
theorem main_v32_at_head (c : Dev nD) :
    W8 m ρ c (Proc.devRef .tc main_v32) = shapeCast S1x16 (m ((c.tc : Thread nD τ).loc main_arg5)) shapeCasts_S16_S1x16 := by
  show StableHlo.after hostOps1 (W7 m ρ c) (Proc.devRef .tc main_v32) = _
  after_results
  rw [arg5_at_second_stretch m ρ c]
  rfl

set_option maxHeartbeats 4000000 in
/-- The bias vector of argument 7 viewed as a row, as the head kernel's region finds it. -/
theorem main_v33_at_head (c : Dev nD) :
    W8 m ρ c (Proc.devRef .tc main_v33) = shapeCast S1x32 (m ((c.tc : Thread nD τ).loc main_arg7)) shapeCasts_S32_S1x32 := by
  show StableHlo.after hostOps1 (W7 m ρ c) (Proc.devRef .tc main_v33) = _
  after_results
  rw [arg7_at_second_stretch m ρ c]
  rfl

set_option maxHeartbeats 4000000 in
/-- The bias vector of argument 9 viewed as a row, as the head kernel's region finds it. -/
theorem main_v34_at_head (c : Dev nD) :
    W8 m ρ c (Proc.devRef .tc main_v34) = shapeCast S1x1 (m ((c.tc : Thread nD τ).loc main_arg9)) shapeCasts_S1_S1x1 := by
  show StableHlo.after hostOps1 (W7 m ρ c) (Proc.devRef .tc main_v34) = _
  after_results
  rw [arg9_at_second_stretch m ρ c]
  rfl

set_option maxHeartbeats 4000000 in
/-- The weight matrix of the projection as its kernel's region finds it. -/
theorem arg2_at_projection (c : Dev nD) :
    W6 m ρ c (Proc.devRef .tc main_arg2) = m ((c.tc : Thread nD τ).loc main_arg2) := by
  show StableHlo.after hostOps0_5 (W5 m ρ c) (Proc.devRef .tc main_arg2) = _
  after_results

set_option maxHeartbeats 4000000 in
/-- The features padded with 4000 zero rows, as the projection kernel's region finds them. -/
theorem padded_features (c : Dev nD) :
    W6 m ρ c (Proc.devRef .tc main_v17)
      = pad S104000x512 ![0, 0] ![4000, 0] ![0, 0] (m ((c.tc : Thread nD τ).loc main_arg0))
          (sitofp (F := Ideal) .f32 (constantI S_ 32 0#32)) pads_S100000x512_S104000x512_040000_000 h_S_ := by
  show StableHlo.after hostOps0_5 (W5 m ρ c) (Proc.devRef .tc main_v17) = _
  after_results
  rfl

/-! ### The weights, stretch by stretch

Each stretch is read generically in the contents `V` it starts from: a called function's typed buffers then wrap only
single buffer reads. -/

set_option maxHeartbeats 4000000 in
/-- The first stretch's mask "the degree is positive". -/
theorem degree_positive_mask (c : Dev nD) :
    W1 m ρ c (Proc.devRef .tc main_v12) = Cert.ReferenceIdeal.ReadP.val_main_v13 (F := Ideal) (m ((c.tc : Thread nD τ).loc main_arg1)) := by
  show StableHlo.after hostOps0 (W0 m ρ c) (Proc.devRef .tc main_v12) = _
  after_results
  rfl

set_option maxHeartbeats 4000000 in
/-- The first stretch's power `deg ^ (-1/2)`. -/
theorem degree_power (c : Dev nD) :
    W1 m ρ c (Proc.devRef .tc main_v14) = Cert.ReferenceIdeal.ReadP.val_main_v15 (F := Ideal) (m ((c.tc : Thread nD τ).loc main_arg1)) := by
  show StableHlo.after hostOps0 (W0 m ρ c) (Proc.devRef .tc main_v14) = _
  after_results
  rfl

set_option maxHeartbeats 4000000 in
/-- The first stretch's zero constant, the value where the degree is not positive. -/
theorem guard_zero (c : Dev nD) :
    W1 m ρ c (Proc.devRef .tc main_cst_3) = Cert.ReferenceIdeal.ReadP.val_main_cst_3 (F := Ideal) := by
  show StableHlo.after hostOps0 (W0 m ρ c) (Proc.devRef .tc main_cst_3) = _
  after_results
  rfl

set_option maxHeartbeats 4000000 in
/-- The guarded select, from any contents. -/
theorem where_stretch (V : Valuation τ sig (Elt Ideal)) :
    StableHlo.after hostOps0_1 V (Proc.devRef .tc main_v15)
      = select (V (Proc.devRef .tc main_v12)) (V (Proc.devRef .tc main_v14))
          (broadcastInDim S100000 ![] bcast_S_S100000 (V (Proc.devRef .tc main_cst_3))) := by
  after_results
  rfl

/-- The weights `deg^(-1/2)`, zero where the degree is not positive, after the guarded select. -/
theorem weights_vec (c : Dev nD) :
    W2 m ρ c (Proc.devRef .tc main_v15) = Cert.ReferenceIdeal.ReadP.val_main_v16 (F := Ideal) (m ((c.tc : Thread nD τ).loc main_arg1)) := by
  refine (where_stretch (W1 m ρ c)).trans ?_
  rw [degree_positive_mask, degree_power, guard_zero]
  rfl

set_option maxHeartbeats 4000000 in
/-- The weights viewed as a column, from any contents. -/
theorem column_stretch (V : Valuation τ sig (Elt Ideal)) :
    StableHlo.after hostOps0_2 V (Proc.devRef .tc main_v16)
      = shapeCast S100000x1 (V (Proc.devRef .tc main_v15)) shapeCasts_S100000_S100000x1 := by
  after_results
  rfl

set_option maxHeartbeats 4000000 in
theorem keep_column_3 (V : Valuation τ sig (Elt Ideal)) :
    StableHlo.after hostOps0_3 V (Proc.devRef .tc main_v16) = V (Proc.devRef .tc main_v16) := by
  after_results

set_option maxHeartbeats 4000000 in
theorem keep_column_4 (V : Valuation τ sig (Elt Ideal)) :
    StableHlo.after hostOps0_4 V (Proc.devRef .tc main_v16) = V (Proc.devRef .tc main_v16) := by
  after_results

set_option maxHeartbeats 4000000 in
theorem keep_column_5 (V : Valuation τ sig (Elt Ideal)) :
    StableHlo.after hostOps0_5 V (Proc.devRef .tc main_v16) = V (Proc.devRef .tc main_v16) := by
  after_results

set_option maxHeartbeats 4000000 in
/-- The padding value's integer zero, from any contents. -/
theorem pad_zero_stretch (V : Valuation τ sig (Elt Ideal)) :
    StableHlo.after hostOps0_4 V (Proc.devRef .tc main_c_4) = constantI S_ 32 0#32 := by
  after_results

set_option maxHeartbeats 4000000 in
/-- The column padded with 4000 rows of the converted zero, from any contents. -/
theorem pad_column_stretch (V : Valuation τ sig (Elt Ideal)) :
    StableHlo.after hostOps0_5 V (Proc.devRef .tc main_v18)
      = pad S104000x1 ![0, 0] ![4000, 0] ![0, 0] (V (Proc.devRef .tc main_v16))
          (sitofp (F := Ideal) .f32 (V (Proc.devRef .tc main_c_4))) pads_S100000x1_S104000x1_040000_000 h_S_ := by
  after_results
  rfl

/-- The weights as a column, before the second padding call. -/
theorem weights_column_5 (c : Dev nD) :
    W5 m ρ c (Proc.devRef .tc main_v16)
      = shapeCast S100000x1 (Cert.ReferenceIdeal.ReadP.val_main_v16 (F := Ideal) (m ((c.tc : Thread nD τ).loc main_arg1))) shapeCasts_S100000_S100000x1 := by
  refine (keep_column_4 (W4 m ρ c)).trans ?_
  refine (keep_column_3 (W3 m ρ c)).trans ?_
  refine (column_stretch (W2 m ρ c)).trans ?_
  rw [weights_vec]

/-- The weights as a column padded with 4000 zero rows, as the projection kernel's region finds them. -/
theorem padded_weights (c : Dev nD) :
    W6 m ρ c (Proc.devRef .tc main_v18)
      = pad S104000x1 ![0, 0] ![4000, 0] ![0, 0]
          (shapeCast S100000x1 (Cert.ReferenceIdeal.ReadP.val_main_v16 (F := Ideal) (m ((c.tc : Thread nD τ).loc main_arg1))) shapeCasts_S100000_S100000x1)
          (sitofp (F := Ideal) .f32 (constantI S_ 32 0#32)) pads_S100000x1_S104000x1_040000_000 h_S_ := by
  refine (pad_column_stretch (W5 m ρ c)).trans ?_
  rw [weights_column_5, show W5 m ρ c (Proc.devRef .tc main_c_4) = constantI S_ 32 0#32 from pad_zero_stretch (W4 m ρ c)]

set_option maxHeartbeats 4000000 in
/-- The weights as a column, as the head kernel's region finds them. -/
theorem weights_at_head (c : Dev nD) :
    W8 m ρ c (Proc.devRef .tc main_v16)
      = shapeCast S100000x1 (Cert.ReferenceIdeal.ReadP.val_main_v16 (F := Ideal) (m ((c.tc : Thread nD τ).loc main_arg1))) shapeCasts_S100000_S100000x1 := by
  show StableHlo.after hostOps1 (W7 m ρ c) (Proc.devRef .tc main_v16) = _
  after_results
  rw [W7_of_ne m ρ c main_v16 (by decide)]
  exact (keep_column_5 (W5 m ρ c)).trans (weights_column_5 m ρ c)

set_option maxHeartbeats 4000000 in
/-- The aggregated messages as the head kernel's region finds them: the source-scaled projection's rows gathered at
    the wrapped source words and summed into the target words' rows. -/
theorem messages_at_head (c : Dev nD) :
    W8 m ρ c (Proc.devRef .tc main_v30)
      = Host.scatterAdd scatter_S100000x16_S3300000x1_S3300000x16_1_0_0_1
          (broadcastInDim S100000x16 ![] bcast_S_S100000x16 (constant (F := Ideal) S_ .f32 0x00000000#32))
          (broadcastInDim S3300000x1 ![0] bcast_S3300000_S3300000x1_0 (W7 m ρ c (Proc.devRef .tc main_v6)))
          (Host.gather gather_S100000x16_S3300000x1_S3300000x16_1_0_n_n_0_1_116
            (extractStridedSlice S100000x16 ![0, 0] (W7 m ρ c (Proc.devRef .tc main_v19)) slices_S104000x16_S100000x16_0_0)
            (broadcastInDim S3300000x1 ![0] bcast_S3300000_S3300000x1_0
              (select (cmpi .slt (W7 m ρ c (Proc.devRef .tc main_v5)) (broadcastInDim S3300000 ![] bcast_S_S3300000 (constantI S_ 32 0#32)))
                (addi (W7 m ρ c (Proc.devRef .tc main_v5)) (broadcastInDim S3300000 ![] bcast_S_S3300000 (constantI S_ 32 100000#32)))
                (W7 m ρ c (Proc.devRef .tc main_v5))))) := by
  show StableHlo.after hostOps1 (W7 m ρ c) (Proc.devRef .tc main_v30) = _
  after_results

end Cert.KernelIdeal.HostSide

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.ProjectionRegion.lean ====
/-
  The projection kernel's region, read as one whole array.

  Grid point `t` of 13 loads rows `8000 t … 8000 t + 7999` of the padded features `X` (a [104000, 512] array), the
  whole weight matrix `W` ([512, 16]) and the same rows of the padded weight column `D` ([104000, 1]); it stores the
  [8000, 16] block `(X_rows · W) ∘ D_rows` — the matrix product into a zero accumulator, every row scaled by its
  entry of the column — as rows `8000 t …` of the output. The 13 blocks tile the output, so after the region the
  output holds, at `(n, g)`, `(∑_k X[n, k] · W[k, g]) · D[n, 0]`.
-/
import proofs.«108288_j38371237823055_2_alg».proof.Proof.Gen.KernelIdeal.Frame
import proofs.«108288_j38371237823055_2_alg».proof.Proof.LibPlainDot
import proofs.«108288_j38371237823055_2_alg».proof.Proof.LibKeepdims
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Projection

open Cert.KernelIdeal Cert.KernelIdeal.Gen

theorem hz : (![0, 0] : Fin 2 → Nat) = fun _ => 0 := funext fun a => by fin_cases a <;> rfl

/-- Entry `(n, g)` of the scaled projection: row `n` of `X` against column `g` of `W`, times row `n`'s weight. -/
def rowEntry (X : FVec Ideal S104000x512 .f32) (W : FVec Ideal S512x16 .f32) (D : FVec Ideal S104000x1 .f32)
    (n : Fin 104000) (g : Fin 16) : Ideal .f32 :=
  (∑ k : Fin 512, X (ix2 n k) * W (ix2 k g)) * D (ix2 n (0 : Fin 1))

/-- The scaled projection as a whole [104000, 16] array. -/
def scaledProj (X : FVec Ideal S104000x512 .f32) (W : FVec Ideal S512x16 .f32) (D : FVec Ideal S104000x1 .f32) :
    FVec Ideal S104000x16 .f32 :=
  fun i => rowEntry X W D (i 0) (i 1)

theorem scaledProj_ix2 (X : FVec Ideal S104000x512 .f32) (W : FVec Ideal S512x16 .f32) (D : FVec Ideal S104000x1 .f32)
    (n : Fin 104000) (g : Fin 16) : scaledProj X W D (ix2 n g) = rowEntry X W D n g := rfl

/-- The body's stored value at `(p, g)` of its block: the product's entry times the column's entry of row `p`. -/
theorem pay_apply (x0 : FVec Ideal S8000x512 .f32) (x1 : FVec Ideal S512x16 .f32) (x2 : FVec Ideal S8000x1 .f32)
    (p : Fin 8000) (g : Fin 16) :
    k0_pay1 (F := Ideal) x0 x1 x2 (ix2 p g)
      = (∑ k : Fin 512, x0 (ix2 p k) * x1 (ix2 k g)) * x2 (ix2 p (0 : Fin 1)) := by
  unfold k0_pay1
  simp only [shapeCast_self]
  show FloatOps.mulf (matmul (F := Ideal) dot_S8000x512_S512x16_S8000x16_1_0_0_1_n_n none x0 x1
      (constant S8000x16 .f32 0x00000000#32) (ix2 p g)) (broadcastTo S8000x16 x2 broadcasts_S8000x1_S8000x16 (ix2 p g)) = _
  rw [Cert.PlainDot.matmul_zero_apply dot_S8000x512_S512x16_S8000x16_1_0_0_1_n_n rfl, Cert.Lib.Keepdims.broadcastTo_a1_ab_apply]
  rfl

/-- The same with the block's loads identified with rows of whole arrays. -/
theorem block_entry (x0 : FVec Ideal S8000x512 .f32) (x1 : FVec Ideal S512x16 .f32) (x2 : FVec Ideal S8000x1 .f32)
    (X : FVec Ideal S104000x512 .f32) (W : FVec Ideal S512x16 .f32) (D : FVec Ideal S104000x1 .f32)
    (p : Fin 8000) (g : Fin 16) (n : Fin 104000)
    (h0 : ∀ k : Fin 512, x0 (ix2 p k) = X (ix2 n k)) (h1 : ∀ k : Fin 512, x1 (ix2 k g) = W (ix2 k g))
    (h2 : x2 (ix2 p (0 : Fin 1)) = D (ix2 n (0 : Fin 1))) :
    k0_pay1 (F := Ideal) x0 x1 x2 (ix2 p g) = scaledProj X W D (ix2 n g) := by
  rw [pay_apply, scaledProj_ix2]
  unfold rowEntry
  rw [h2]
  exact congrArg (· * D (ix2 n (0 : Fin 1))) (Finset.sum_congr rfl fun k _ => by rw [h0 k, h1 k])

variable (V : (c : Dev nD) → (b : Ref sig .tc) → Buf (Elt Ideal) ((c : Thread nD τ).loc b))

/-- The printed index maps over the grid: the row windows move with the point, the weight matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the scaled projection of the arrays as the region finds them. -/
theorem flushed_eq (c : Dev nD) (t : Fin cfg0.N) :
    (dat0 V c).flushed 3 t = ((cfg0.win 3).blk t).view.read (Elt Ideal)
      (scaledProj (V c main_v17) (V c main_arg2) (V c main_v18)) := by
  show (cfg0.win 3).cut (grid0.coords t) ((dat0 V c).after 3 t) = _
  rw [after0_3]
  unfold out0_3
  rw [View.canon_unit_zero hz]
  simp only [View.ld_unit_zero (S := S8000x512) hz, View.ld_unit_zero (S := S512x16) hz, View.ld_unit_zero (S := S8000x1) hz]
  obtain ⟨e00, e01, e10, e11, e20, e21, e30, e31⟩ := idx_facts t
  have ht : t.val < 13 := by have h := t.isLt; have hN : cfg0.N = 13 := N_0; omega
  funext j
  have hj0 : (j 0).val < 8000 := (j 0).isLt
  have hj1 : (j 1).val < 16 := (j 1).isLt
  have hn : t.val * 8000 + (j 0).val < 104000 := by omega
  have hemb : (((cfg0.win 3).blk t).view.emb j : S104000x16.Idx) = ix2 (⟨t.val * 8000 + (j 0).val, hn⟩ : Fin 104000) (j 1) := by
    funext a; apply Fin.ext
    match a with
    | ⟨0, _⟩ => show win0_3.index t (0 : Fin 2) * 8000 + 1 * (j 0).val = t.val * 8000 + (j 0).val; omega
    | ⟨1, _⟩ => show win0_3.index t (1 : Fin 2) * 16 + 1 * (j 1).val = (j 1).val; omega
  show k0_pay1 (F := Ideal) (iblk0 V c 0 t) (iblk0 V c 1 t) (iblk0 V c 2 t) j
      = scaledProj (V c main_v17) (V c main_arg2) (V c main_v18) (((cfg0.win 3).blk t).view.emb j)
  refine (congrArg (k0_pay1 (F := Ideal) (iblk0 V c 0 t) (iblk0 V c 1 t) (iblk0 V c 2 t)) (eq_ix2 j)).trans ?_
  refine (block_entry (iblk0 V c 0 t) (iblk0 V c 1 t) (iblk0 V c 2 t) (V c main_v17) (V c main_arg2) (V c main_v18)
    (j 0) (j 1) ⟨t.val * 8000 + (j 0).val, hn⟩ ?_ ?_ ?_).trans (congrArg _ hemb.symm)
  · intro k
    unfold iblk0
    rw [View.read_apply]
    show V c main_v17 _ = V c main_v17 _
    refine congrArg _ (funext fun a => Fin.ext ?_)
    match a with
    | ⟨0, _⟩ => show win0_0.index t (0 : Fin 2) * 8000 + 1 * (j 0).val = t.val * 8000 + (j 0).val; omega
    | ⟨1, _⟩ => show win0_0.index t (1 : Fin 2) * 512 + 1 * k.val = k.val; omega
  · intro k
    unfold iblk0
    rw [View.read_apply]
    show V c main_arg2 _ = V c main_arg2 _
    refine congrArg _ (funext fun a => Fin.ext ?_)
    match a with
    | ⟨0, _⟩ => show win0_1.index t (0 : Fin 2) * 512 + 1 * k.val = k.val; omega
    | ⟨1, _⟩ => show win0_1.index t (1 : Fin 2) * 16 + 1 * (j 1).val = (j 1).val; omega
  · unfold iblk0
    rw [View.read_apply]
    show V c main_v18 _ = V c main_v18 _
    refine congrArg _ (funext fun a => Fin.ext ?_)
    match a with
    | ⟨0, _⟩ => show win0_2.index t (0 : Fin 2) * 8000 + 1 * (j 0).val = t.val * 8000 + (j 0).val; omega
    | ⟨1, _⟩ => show win0_2.index t (1 : Fin 2) * 1 + 1 * 0 = 0; omega

/-- THE OUTPUT ARRAY after the region: the scaled projection of the arrays as the region finds them. The 13 row blocks
    tile the 104000 rows: row `n` is in block `n / 8000`. -/
theorem final (c : Dev nD) :
    (dat0 V c).arrAt 3 cfg0.N = scaledProj (V c main_v17) (V c main_arg2) (V c main_v18) :=
  (dat0 V c).arrAt_eq_of_cover 3 _ (fun t _ => flushed_eq V c t) fun i => by
    have hi0 : (i 0).val < 104000 := (i 0).isLt
    have hi1 : (i 1).val < 16 := (i 1).isLt
    have htt : (i 0).val / 8000 < cfg0.N := by rw [show cfg0.N = 13 from N_0]; omega
    obtain ⟨-, -, -, -, -, -, e30, e31⟩ := idx_facts ⟨(i 0).val / 8000, htt⟩
    refine ⟨⟨(i 0).val / 8000, htt⟩, flush0_3 _, ?_⟩
    show i ∈ ((View.whole main_v19).slice (win0_3.rect ⟨(i 0).val / 8000, htt⟩)).set
    rw [View.set_slice_whole, Rect.mem_set_unit]
    intro a
    match a with
    | ⟨0, _⟩ =>
      show win0_3.index ⟨(i 0).val / 8000, htt⟩ (0 : Fin 2) * 8000 ≤ (i 0).val
        ∧ (i 0).val < win0_3.index ⟨(i 0).val / 8000, htt⟩ (0 : Fin 2) * 8000 + 8000
      rw [e30]; show (i 0).val / 8000 * 8000 ≤ (i 0).val ∧ (i 0).val < (i 0).val / 8000 * 8000 + 8000; omega
    | ⟨1, _⟩ =>
      show win0_3.index ⟨(i 0).val / 8000, htt⟩ (1 : Fin 2) * 16 ≤ (i 1).val
        ∧ (i 1).val < win0_3.index ⟨(i 0).val / 8000, htt⟩ (1 : Fin 2) * 16 + 16
      rw [e31]; omega

end Cert.KernelIdeal.Projection

end
-- ==== Proof.ScaleAlgebra.lean ====
/-
  The algebra that joins the two arrangements of a symmetric-normalised graph aggregation, on the extended reals.

  One side scales every message by the product of the two endpoint weights before summing the messages that land on a
  node; the other scales a message by its source weight only, sums, and multiplies the sum by the target node's weight
  afterwards. The target weight is the same for every message landing on the node, so it factors out of the sum.
  On the extended reals a common factor comes out of a sum when it is a nonnegative real (not for a negative or an
  infinite factor), and an inverse square root of a degree is one: that is all the identity needs, whatever the
  messages are.
-/
import Idealize.ShloMosaic.PureOps.Ideal
import Idealize.ShloMosaic.PureOps.Ideal.Laws

noncomputable section

namespace Cert.ScaleAlgebra

open Idealize.ShloMosaic

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- The pattern of `-0.5` denotes the real `-1/2`. -/
theorem ofBits_neg_half : Ideal.ofBits .f32 0xBF000000#32 = (((-1 / 2 : ℝ)) : EReal) := by
  simp [Ideal.ofBits, Ideal.ieee, -EReal.coe_mul]; norm_num

/-- A nonnegative real factor comes out of a finite sum of extended reals. -/
theorem sum_mul_of_nonneg_real {ι : Type} (L : Finset ι) (t : ι → EReal) {D : EReal} (h0 : 0 ≤ D) (htop : D ≠ ⊤) :
    (∑ e ∈ L, t e) * D = ∑ e ∈ L, t e * D := by
  classical
  refine Finset.induction_on L ?_ ?_
  · rw [Finset.sum_empty, Finset.sum_empty, zero_mul]
  · intro a s ha ih
    rw [Finset.sum_insert ha, Finset.sum_insert ha, EReal.right_distrib_of_nonneg_of_ne_top h0 htop, ih]

/-- THE IDENTITY: the messages `a e` scaled by their source weights `w e`, summed from zero over the edges landing on a
    node and then multiplied by the node's weight `D`, are the messages scaled by both weights and summed from zero. -/
theorem scale_after_sum {ι : Type} (L : Finset ι) (a w : ι → EReal) {D : EReal} (h0 : 0 ≤ D) (htop : D ≠ ⊤) :
    ((0 : EReal) + ∑ e ∈ L, a e * w e) * D = (0 : EReal) + ∑ e ∈ L, a e * (w e * D) := by
  rw [zero_add, zero_add, sum_mul_of_nonneg_real L _ h0 htop]
  exact Finset.sum_congr rfl fun e _ => mul_assoc _ _ _

/-- A count of ones from zero is a nonnegative real. -/
theorem count_real {ι : Type} (L : Finset ι) : (0 : EReal) + ∑ _e ∈ L, (1 : EReal) = ((L.card : ℝ) : EReal) := by
  classical
  rw [zero_add]
  -- one more edge is one more unit, on both sides
  refine Finset.induction_on L ?_ ?_
  · rw [Finset.sum_empty, Finset.card_empty, Nat.cast_zero, EReal.coe_zero]
  · intro a s ha ih
    rw [Finset.sum_insert ha, ih, Finset.card_insert_of_notMem ha, Nat.cast_add, Nat.cast_one, EReal.coe_add,
      EReal.coe_one, add_comm]

/-- The inverse square root of a count, selected where a guard bit is set and zero elsewhere, is a nonnegative real. -/
theorem guarded_rsqrt_nonneg_real (k : ℕ) (c : BitVec 1) :
    0 ≤ Scalar.select c (Ideal.pow ((k : ℝ) : EReal) (((-1 / 2 : ℝ)) : EReal)) (0 : EReal)
      ∧ Scalar.select c (Ideal.pow ((k : ℝ) : EReal) (((-1 / 2 : ℝ)) : EReal)) (0 : EReal) ≠ ⊤ := by
  unfold Scalar.select
  split
  · rw [Ideal.pow_coe_coe]
    exact ⟨EReal.coe_nonneg.mpr (Real.rpow_nonneg (Nat.cast_nonneg k) _), EReal.coe_ne_top _⟩
  · exact ⟨le_refl _, EReal.zero_ne_top⟩

end Cert.ScaleAlgebra

end
-- ==== Proof.MlpHead.lean ====
/-
  The per-node multilayer-perceptron head, and a dense layer read at an entry.

  After the graph convolution every node carries 16 activations; the head maps them, node by node, through
  16 → 16 → 32 → 1 affine layers with a rectifier after the first two and a logistic at the end. `head` is that map
  on one node's activations over the extended reals. A layer applied to a whole block of rows — a matrix product into
  a zero accumulator, a bias row spread down the rows, the rectifier against a zero constant — read at row `p`,
  unit `g` is `max (∑_k l[p, k] · W[k, g] + b[g], 0)`: the same whether a kernel computes it on a block of rows or
  the host on all of them.
-/
import proofs.«108288_j38371237823055_2_alg».proof.Proof.LibPlainDot
import proofs.«108288_j38371237823055_2_alg».proof.Proof.ScaleAlgebra
import Idealize.ShloMosaic.Lib.Pipeline.Value
import Idealize.ShloMosaic.Lib.ValueIdx
import Idealize.ShloMosaic.Lib.ValueLayout

noncomputable section

namespace Cert.MlpHead

open Idealize.ShloMosaic Idealize.ShloMosaic.ValueIdx

/-- The head on one node's 16 activations `h`: two rectified affine layers, one affine layer, the logistic. -/
def head (h : Fin 16 → EReal) (W1 : (⟨2, ![16, 16]⟩ : Shape).Idx → EReal) (b1 : Fin 16 → EReal)
    (W2 : (⟨2, ![16, 32]⟩ : Shape).Idx → EReal) (b2 : Fin 32 → EReal)
    (W3 : (⟨2, ![32, 1]⟩ : Shape).Idx → EReal) (b3 : EReal) : EReal :=
  Ideal.logistic ((∑ j : Fin 32,
      max ((∑ i : Fin 16, max ((∑ k : Fin 16, h k * W1 (ix2 k i)) + b1 i) 0 * W2 (ix2 i j)) + b2 j) 0
        * W3 (ix2 j (0 : Fin 1))) + b3)

/-- A kernel's dense layer with its rectifier, at entry `(p, g)` of the block. -/
theorem kernel_dense_relu_apply (M K N : ℕ) (d : DotDims ⟨2, ![M, K]⟩ ⟨2, ![K, N]⟩ ⟨2, ![M, N]⟩)
    (hd : d = DotDims.plain M K N) (l : FVec Ideal ⟨2, ![M, K]⟩ .f32) (W : FVec Ideal ⟨2, ![K, N]⟩ .f32)
    (b : FVec Ideal ⟨2, ![1, N]⟩ .f32) (hb : (⟨2, ![1, N]⟩ : Shape).Broadcasts ⟨2, ![M, N]⟩) (p : Fin M) (g : Fin N) :
    maximumf (addf (matmul (F := Ideal) d none l W (constant ⟨2, ![M, N]⟩ .f32 0x00000000#32))
        (broadcastTo ⟨2, ![M, N]⟩ b hb)) (broadcast ⟨2, ![M, N]⟩ (Scalar.ofBits (F := Ideal) .f32 0x00000000#32)) (ix2 p g)
      = max ((∑ k : Fin K, l (ix2 p k) * W (ix2 k g)) + b (ix2 (0 : Fin 1) g)) 0 := by
  show max (matmul (F := Ideal) d none l W (constant ⟨2, ![M, N]⟩ .f32 0x00000000#32) (ix2 p g)
      + broadcastTo ⟨2, ![M, N]⟩ b hb (ix2 p g)) (Ideal.ofBits .f32 0x00000000#32) = _
  rw [Cert.PlainDot.matmul_zero_apply d hd, broadcastTo_1b_ab_apply, Cert.ScaleAlgebra.ofBits_zero]

/-- A kernel's dense layer without a rectifier, at entry `(p, g)` of the block. -/
theorem kernel_dense_apply (M K N : ℕ) (d : DotDims ⟨2, ![M, K]⟩ ⟨2, ![K, N]⟩ ⟨2, ![M, N]⟩)
    (hd : d = DotDims.plain M K N) (l : FVec Ideal ⟨2, ![M, K]⟩ .f32) (W : FVec Ideal ⟨2, ![K, N]⟩ .f32)
    (b : FVec Ideal ⟨2, ![1, N]⟩ .f32) (hb : (⟨2, ![1, N]⟩ : Shape).Broadcasts ⟨2, ![M, N]⟩) (p : Fin M) (g : Fin N) :
    addf (matmul (F := Ideal) d none l W (constant ⟨2, ![M, N]⟩ .f32 0x00000000#32))
        (broadcastTo ⟨2, ![M, N]⟩ b hb) (ix2 p g)
      = (∑ k : Fin K, l (ix2 p k) * W (ix2 k g)) + b (ix2 (0 : Fin 1) g) := by
  show matmul (F := Ideal) d none l W (constant ⟨2, ![M, N]⟩ .f32 0x00000000#32) (ix2 p g)
      + broadcastTo ⟨2, ![M, N]⟩ b hb (ix2 p g) = _
  rw [Cert.PlainDot.matmul_zero_apply d hd, broadcastTo_1b_ab_apply]

end Cert.MlpHead

end
-- ==== Proof.HeadRegion.lean ====
/-
  The multilayer-perceptron kernel's region, read as one whole array.

  Grid point `t` of 10 loads rows `10000 t … 10000 t + 9999` of the aggregated messages `A` ([100000, 16]) and of the
  weight column `D` ([100000, 1]), and the whole of the bias rows and weight matrices. Row by row it forms the 16
  activations `max (A[n, k] · D[n, 0] + bg[k], 0)`, applies the head to them and stores the [10000, 1] block of results
  as rows `10000 t …` of the output. The 10 blocks tile the output, so after the region the output holds, at `(n, 0)`,
  the head of node `n`'s activations.
-/
import proofs.«108288_j38371237823055_2_alg».proof.Proof.Gen.KernelIdeal.Frame
import proofs.«108288_j38371237823055_2_alg».proof.Proof.MlpHead
import proofs.«108288_j38371237823055_2_alg».proof.Proof.LibKeepdims
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HeadRegion

open Cert.KernelIdeal Cert.KernelIdeal.Gen Cert.MlpHead

theorem hz : (![0, 0] : Fin 2 → Nat) = fun _ => 0 := funext fun a => by fin_cases a <;> rfl

/-- Node `n`'s 16 activations: its aggregated messages scaled by its weight, plus the bias, rectified. -/
def activations (A : FVec Ideal S100000x16 .f32) (D : FVec Ideal S100000x1 .f32) (bg : FVec Ideal S1x16 .f32)
    (n : Fin 100000) : Fin 16 → EReal :=
  fun k => max (A (ix2 n k) * D (ix2 n (0 : Fin 1)) + bg (ix2 (0 : Fin 1) k)) 0

/-- The head of every node's activations, as a whole [100000, 1] array. -/
def headArray (A : FVec Ideal S100000x16 .f32) (D : FVec Ideal S100000x1 .f32) (bg : FVec Ideal S1x16 .f32)
    (W1 : FVec Ideal S16x16 .f32) (b1 : FVec Ideal S1x16 .f32) (W2 : FVec Ideal S16x32 .f32) (b2 : FVec Ideal S1x32 .f32)
    (W3 : FVec Ideal S32x1 .f32) (b3 : FVec Ideal S1x1 .f32) : FVec Ideal S100000x1 .f32 :=
  fun i => head (activations A D bg (i 0)) W1 (fun a => b1 (ix2 (0 : Fin 1) a)) W2 (fun a => b2 (ix2 (0 : Fin 1) a)) W3
    (b3 (ix2 (0 : Fin 1) (0 : Fin 1)))

/-- The body's stored value at row `p` of its block: the head of the row's activations. -/
theorem pay_apply (x0 : FVec Ideal S10000x16 .f32) (x1 : FVec Ideal S10000x1 .f32) (x2 : FVec Ideal S1x16 .f32)
    (x3 : FVec Ideal S16x16 .f32) (x4 : FVec Ideal S1x16 .f32) (x5 : FVec Ideal S16x32 .f32) (x6 : FVec Ideal S1x32 .f32)
    (x7 : FVec Ideal S32x1 .f32) (x8 : FVec Ideal S1x1 .f32) (p : Fin 10000) (u : Fin 1) :
    k1_pay1 (F := Ideal) x0 x1 x2 x3 x4 x5 x6 x7 x8 (ix2 p u)
      = head (fun k => max (x0 (ix2 p k) * x1 (ix2 p (0 : Fin 1)) + x2 (ix2 (0 : Fin 1) k)) 0) x3
          (fun a => x4 (ix2 (0 : Fin 1) a)) x5 (fun a => x6 (ix2 (0 : Fin 1) a)) x7 (x8 (ix2 (0 : Fin 1) (0 : Fin 1))) := by
  obtain rfl : u = 0 := Subsingleton.elim _ _
  unfold k1_pay1 head
  simp only [shapeCast_self]
  refine congrArg Ideal.logistic ?_
  refine (kernel_dense_apply 10000 32 1 dot_S10000x32_S32x1_S10000x1_1_0_0_1_n_n rfl _ _ _ _ p 0).trans ?_
  refine congrArg (· + x8 (ix2 (0 : Fin 1) (0 : Fin 1))) (Finset.sum_congr rfl fun j _ => ?_)
  refine congrArg (· * x7 (ix2 j (0 : Fin 1))) ?_
  refine (kernel_dense_relu_apply 10000 16 32 dot_S10000x16_S16x32_S10000x32_1_0_0_1_n_n rfl _ _ _ _ p j).trans ?_
  refine congrArg (fun s => max (s + x6 (ix2 (0 : Fin 1) j)) 0) (Finset.sum_congr rfl fun i _ => ?_)
  refine congrArg (· * x5 (ix2 i j)) ?_
  refine (kernel_dense_relu_apply 10000 16 16 dot_S10000x16_S16x16_S10000x16_1_0_0_1_n_n rfl _ _ _ _ p i).trans ?_
  refine congrArg (fun s => max (s + x4 (ix2 (0 : Fin 1) i)) 0) (Finset.sum_congr rfl fun k _ => ?_)
  refine congrArg (· * x3 (ix2 k i)) ?_
  show max (x0 (ix2 p k) * broadcastTo S10000x16 x1 broadcasts_S10000x1_S10000x16 (ix2 p k)
      + broadcastTo S10000x16 x2 broadcasts_S1x16_S10000x16 (ix2 p k)) (Ideal.ofBits .f32 0x00000000#32) = _
  rw [Cert.Lib.Keepdims.broadcastTo_a1_ab_apply, broadcastTo_1b_ab_apply, Cert.ScaleAlgebra.ofBits_zero]

/-- The same with the block's loads identified with rows of whole arrays and with the whole parameter arrays. -/
theorem block_entry (x0 : FVec Ideal S10000x16 .f32) (x1 : FVec Ideal S10000x1 .f32) (x2 : FVec Ideal S1x16 .f32)
    (x3 : FVec Ideal S16x16 .f32) (x4 : FVec Ideal S1x16 .f32) (x5 : FVec Ideal S16x32 .f32) (x6 : FVec Ideal S1x32 .f32)
    (x7 : FVec Ideal S32x1 .f32) (x8 : FVec Ideal S1x1 .f32)
    (A : FVec Ideal S100000x16 .f32) (D : FVec Ideal S100000x1 .f32)
    (p : Fin 10000) (u : Fin 1) (n : Fin 100000)
    (h0 : ∀ k : Fin 16, x0 (ix2 p k) = A (ix2 n k)) (h1 : x1 (ix2 p (0 : Fin 1)) = D (ix2 n (0 : Fin 1))) :
    k1_pay1 (F := Ideal) x0 x1 x2 x3 x4 x5 x6 x7 x8 (ix2 p u) = headArray A D x2 x3 x4 x5 x6 x7 x8 (ix2 n u) := by
  rw [pay_apply]
  show _ = head (activations A D x2 n) x3 _ x5 _ x7 _
  refine congrArg (fun h => head h x3 (fun a => x4 (ix2 (0 : Fin 1) a)) x5 (fun a => x6 (ix2 (0 : Fin 1) a)) x7
    (x8 (ix2 (0 : Fin 1) (0 : Fin 1)))) (funext fun k => ?_)
  unfold activations
  rw [h0 k, h1]

variable (V : (c : Dev nD) → (b : Ref sig .tc) → Buf (Elt Ideal) ((c : Thread nD τ).loc b))

/-- The printed index maps over the grid: the two row windows and the output move with the point. -/
theorem idx_rows : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_9.index t (0 : Fin 2) = t.val
    ∧ win1_9.index t (1 : Fin 2) = 0 :=
  (by decide +kernel : ∀ t : Fin grid1.N, _)

/-- The first layer's parameter windows stay at block (0, 0). -/
theorem idx_params_a : ∀ t : Fin cfg1.N, win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0 :=
  (by decide +kernel : ∀ t : Fin grid1.N, _)

/-- The later layers' parameter windows stay at block (0, 0). -/
theorem idx_params_b : ∀ t : Fin cfg1.N, win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0 :=
  (by decide +kernel : ∀ t : Fin grid1.N, _)

/-- Window 2 holds its whole array at every point. -/
theorem param_block_2 (c : Dev nD) (t : Fin cfg1.N) : (iblk1 V c 2 t : FVec Ideal S1x16 .f32) = V c main_v31 := by
  obtain ⟨e20, e21, -, -, -, -⟩ := idx_params_a t
  unfold iblk1; funext y; rw [View.read_apply]; show V c main_v31 _ = V c main_v31 _
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 16 + 1 * (y 1).val = (y 1).val; omega

/-- Window 3 holds its whole array at every point. -/
theorem param_block_3 (c : Dev nD) (t : Fin cfg1.N) : (iblk1 V c 3 t : FVec Ideal S16x16 .f32) = V c main_arg4 := by
  obtain ⟨-, -, e30, e31, -, -⟩ := idx_params_a t
  unfold iblk1; funext y; rw [View.read_apply]; show V c main_arg4 _ = V c main_arg4 _
  refine congrArg _ (funext fun a => Fin.ext ?_)
  match a with
  | ⟨0, _⟩ => show win1_3.index t (0 : Fin 2) * 16 + 1 * (y 0).val = (y 0).val; omega
  | ⟨1, _⟩ => show win1_3.index t (1 : Fin 2) * 16 + 1 * (y 1).val = (y 1).val; omega

/-- Window 4 holds its whole array at every point. -/
theorem param_block_4 (c : Dev nD) (t : Fin cfg1.N) : (iblk1 V c 4 t : FVec Ideal S1x16 .f32) = V c main_v32 := by
  obtain ⟨-, -, -, -, e40, e41⟩ := idx_params_a t
  unfold iblk1; funext y; rw [View.read_apply]; show V c main_v32 _ = V c main_v32 _
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 16 + 1 * (y 1).val = (y 1).val; omega

/-- Window 5 holds its whole array at every point. -/
theorem param_block_5 (c : Dev nD) (t : Fin cfg1.N) : (iblk1 V c 5 t : FVec Ideal S16x32 .f32) = V c main_arg6 := by
  obtain ⟨e50, e51, -, -, -, -, -, -⟩ := idx_params_b t
  unfold iblk1; funext y; rw [View.read_apply]; show V c main_arg6 _ = V c main_arg6 _
  refine congrArg _ (funext fun a => Fin.ext ?_)
  match a with
  | ⟨0, _⟩ => show win1_5.index t (0 : Fin 2) * 16 + 1 * (y 0).val = (y 0).val; omega
  | ⟨1, _⟩ => show win1_5.index t (1 : Fin 2) * 32 + 1 * (y 1).val = (y 1).val; omega

/-- Window 6 holds its whole array at every point. -/
theorem param_block_6 (c : Dev nD) (t : Fin cfg1.N) : (iblk1 V c 6 t : FVec Ideal S1x32 .f32) = V c main_v33 := by
  obtain ⟨-, -, e60, e61, -, -, -, -⟩ := idx_params_b t
  unfold iblk1; funext y; rw [View.read_apply]; show V c main_v33 _ = V c main_v33 _
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 32 + 1 * (y 1).val = (y 1).val; omega

/-- Window 7 holds its whole array at every point. -/
theorem param_block_7 (c : Dev nD) (t : Fin cfg1.N) : (iblk1 V c 7 t : FVec Ideal S32x1 .f32) = V c main_arg8 := by
  obtain ⟨-, -, -, -, e70, e71, -, -⟩ := idx_params_b t
  unfold iblk1; funext y; rw [View.read_apply]; show V c main_arg8 _ = V c main_arg8 _
  refine congrArg _ (funext fun a => Fin.ext ?_)
  match a with
  | ⟨0, _⟩ => show win1_7.index t (0 : Fin 2) * 32 + 1 * (y 0).val = (y 0).val; omega
  | ⟨1, _⟩ => show win1_7.index t (1 : Fin 2) * 1 + 1 * (y 1).val = (y 1).val; omega

/-- Window 8 holds its whole array at every point. -/
theorem param_block_8 (c : Dev nD) (t : Fin cfg1.N) : (iblk1 V c 8 t : FVec Ideal S1x1 .f32) = V c main_v34 := by
  obtain ⟨-, -, -, -, -, -, e80, e81⟩ := idx_params_b t
  unfold iblk1; funext y; rw [View.read_apply]; show V c main_v34 _ = V c main_v34 _
  refine congrArg _ (funext fun a => Fin.ext ?_)
  match a with
  | ⟨0, _⟩ => show win1_8.index t (0 : Fin 2) * 1 + 1 * (y 0).val = (y 0).val; omega
  | ⟨1, _⟩ => show win1_8.index t (1 : Fin 2) * 1 + 1 * (y 1).val = (y 1).val; omega

/-- Row `p` of the messages window's block at point `t` is row `10000 t + p` of the messages array. -/
theorem rows_block_0 (c : Dev nD) (t : Fin cfg1.N) (p : Fin 10000) (k : Fin 16) (n : Fin 100000)
    (hn : n.val = t.val * 10000 + p.val) :
    (iblk1 V c 0 t : FVec Ideal S10000x16 .f32) (ix2 p k) = (V c main_v30 : FVec Ideal S100000x16 .f32) (ix2 n k) := by
  obtain ⟨e00, e01, -, -, -, -⟩ := idx_rows t
  unfold iblk1
  rw [View.read_apply]
  show V c main_v30 _ = V c main_v30 _
  refine congrArg _ (funext fun a => Fin.ext ?_)
  match a with
  | ⟨0, _⟩ => show win1_0.index t (0 : Fin 2) * 10000 + 1 * p.val = n.val; omega
  | ⟨1, _⟩ => show win1_0.index t (1 : Fin 2) * 16 + 1 * k.val = k.val; omega

/-- Row `p` of the weight column's block at point `t` is row `10000 t + p` of the weight column. -/
theorem rows_block_1 (c : Dev nD) (t : Fin cfg1.N) (p : Fin 10000) (n : Fin 100000)
    (hn : n.val = t.val * 10000 + p.val) :
    (iblk1 V c 1 t : FVec Ideal S10000x1 .f32) (ix2 p (0 : Fin 1)) = (V c main_v16 : FVec Ideal S100000x1 .f32) (ix2 n (0 : Fin 1)) := by
  obtain ⟨-, -, e10, e11, -, -⟩ := idx_rows t
  unfold iblk1
  rw [View.read_apply]
  show V c main_v16 _ = V c main_v16 _
  refine congrArg _ (funext fun a => Fin.ext ?_)
  match a with
  | ⟨0, _⟩ => show win1_1.index t (0 : Fin 2) * 10000 + 1 * p.val = n.val; omega
  | ⟨1, _⟩ => show win1_1.index t (1 : Fin 2) * 1 + 1 * 0 = 0; omega

set_option maxHeartbeats 1000000 in
/-- WHAT POINT `t` WRITES BACK is block `t` of the head array of the arrays as the region finds them. -/
theorem flushed_eq (c : Dev nD) (t : Fin cfg1.N) :
    (dat1 V c).flushed 9 t = ((cfg1.win 9).blk t).view.read (Elt Ideal)
      (headArray (V c main_v30) (V c main_v16) (V c main_v31) (V c main_arg4) (V c main_v32) (V c main_arg6)
        (V c main_v33) (V c main_arg8) (V c main_v34)) := by
  show (cfg1.win 9).cut (grid1.coords t) ((dat1 V c).after 9 t) = _
  rw [after1_9]
  unfold out1_9
  rw [View.canon_unit_zero hz]
  simp only [View.ld_unit_zero (S := S10000x16) hz, View.ld_unit_zero (S := S10000x1) hz, View.ld_unit_zero (S := S1x16) hz,
    View.ld_unit_zero (S := S16x16) hz, View.ld_unit_zero (S := S16x32) hz, View.ld_unit_zero (S := S1x32) hz,
    View.ld_unit_zero (S := S32x1) hz, View.ld_unit_zero (S := S1x1) hz]
  obtain ⟨-, -, -, -, e90, e91⟩ := idx_rows t
  have ht : t.val < 10 := by have h := t.isLt; have hN : cfg1.N = 10 := N_1; omega
  funext j
  have hj0 : (j 0).val < 10000 := (j 0).isLt
  have hj1 : (j 1).val < 1 := (j 1).isLt
  have hn : t.val * 10000 + (j 0).val < 100000 := by omega
  have hemb : (((cfg1.win 9).blk t).view.emb j : S100000x1.Idx) = ix2 (⟨t.val * 10000 + (j 0).val, hn⟩ : Fin 100000) (j 1) := by
    funext a; apply Fin.ext
    match a with
    | ⟨0, _⟩ => show win1_9.index t (0 : Fin 2) * 10000 + 1 * (j 0).val = t.val * 10000 + (j 0).val; omega
    | ⟨1, _⟩ => show win1_9.index t (1 : Fin 2) * 1 + 1 * (j 1).val = (j 1).val; omega
  show k1_pay1 (F := Ideal) (iblk1 V c 0 t) (iblk1 V c 1 t) (iblk1 V c 2 t) (iblk1 V c 3 t) (iblk1 V c 4 t) (iblk1 V c 5 t)
        (iblk1 V c 6 t) (iblk1 V c 7 t) (iblk1 V c 8 t) j
      = headArray (V c main_v30) (V c main_v16) (V c main_v31) (V c main_arg4) (V c main_v32) (V c main_arg6)
        (V c main_v33) (V c main_arg8) (V c main_v34) (((cfg1.win 9).blk t).view.emb j)
  rw [param_block_2 V c t, param_block_3 V c t, param_block_4 V c t, param_block_5 V c t, param_block_6 V c t,
    param_block_7 V c t, param_block_8 V c t]
  refine (congrArg (k1_pay1 (F := Ideal) (iblk1 V c 0 t) (iblk1 V c 1 t) (V c main_v31) (V c main_arg4) (V c main_v32)
    (V c main_arg6) (V c main_v33) (V c main_arg8) (V c main_v34)) (eq_ix2 j)).trans ?_
  exact (block_entry (iblk1 V c 0 t) (iblk1 V c 1 t) (V c main_v31) (V c main_arg4) (V c main_v32)
    (V c main_arg6) (V c main_v33) (V c main_arg8) (V c main_v34) (V c main_v30) (V c main_v16)
    (j 0) (j 1) ⟨t.val * 10000 + (j 0).val, hn⟩ (fun k => rows_block_0 V c t (j 0) k _ rfl)
    (rows_block_1 V c t (j 0) _ rfl)).trans (congrArg _ hemb.symm)

/-- THE OUTPUT ARRAY after the region: the head array of the arrays as the region finds them. The 10 row blocks tile
    the 100000 rows: row `n` is in block `n / 10000`. -/
theorem final (c : Dev nD) :
    (dat1 V c).arrAt 9 cfg1.N = headArray (V c main_v30) (V c main_v16) (V c main_v31) (V c main_arg4) (V c main_v32)
      (V c main_arg6) (V c main_v33) (V c main_arg8) (V c main_v34) :=
  (dat1 V c).arrAt_eq_of_cover 9 _ (fun t _ => flushed_eq V c t) fun i => by
    have hi0 : (i 0).val < 100000 := (i 0).isLt
    have hi1 : (i 1).val < 1 := (i 1).isLt
    have htt : (i 0).val / 10000 < cfg1.N := by rw [show cfg1.N = 10 from N_1]; omega
    obtain ⟨-, -, -, -, e90, e91⟩ := idx_rows ⟨(i 0).val / 10000, htt⟩
    refine ⟨⟨(i 0).val / 10000, htt⟩, flush1_9 _, ?_⟩
    show i ∈ ((View.whole main_v35).slice (win1_9.rect ⟨(i 0).val / 10000, htt⟩)).set
    rw [View.set_slice_whole, Rect.mem_set_unit]
    intro a
    match a with
    | ⟨0, _⟩ =>
      show win1_9.index ⟨(i 0).val / 10000, htt⟩ (0 : Fin 2) * 10000 ≤ (i 0).val
        ∧ (i 0).val < win1_9.index ⟨(i 0).val / 10000, htt⟩ (0 : Fin 2) * 10000 + 10000
      rw [e90]; show (i 0).val / 10000 * 10000 ≤ (i 0).val ∧ (i 0).val < (i 0).val / 10000 * 10000 + 10000; omega
    | ⟨1, _⟩ =>
      show win1_9.index ⟨(i 0).val / 10000, htt⟩ (1 : Fin 2) * 1 ≤ (i 1).val
        ∧ (i 1).val < win1_9.index ⟨(i 0).val / 10000, htt⟩ (1 : Fin 2) * 1 + 1
      rw [e91]; omega

end Cert.KernelIdeal.HeadRegion

end
-- ==== Proof.LibEdgeScatter.lean ====
/-
  An accumulating scatter along the leading axis, read at an index, at the exact (extended-real) instance.

  `segment_sum(v, ids, N)` lowers to a `stablehlo.scatter` with an `add` body into a zero array: the scatter
  indices `ids` as an `[E, 1]` array (index vector on axis 1), one start index per update, the leading operand axis
  inserted. The update of edge `e` lands on row `ids[e]` read as a SIGNED integer, not clamped, and is dropped when
  that integer is not a row of the operand. So entry `n` of the result is the operand's entry plus the sum of the
  updates of the edges `e` with `ids[e] = n`.

  Two forms: a vector of scalars per edge (`[E]` into `[N]`) and a row per edge (`[E, D]` into `[N, D]`, the
  window axis 1 carried along unchanged).
-/
import Idealize.ShloMosaic.PureOps.Ideal
import Idealize.ShloMosaic.PureOps.Ideal.Laws
import Idealize.ShloMosaic.PureOps.Contract
import Idealize.ShloMosaic.Lib.ValueIdx

noncomputable section

namespace Idealize.ShloMosaic.EdgeScatter

open Idealize.ShloMosaic Idealize.ShloMosaic.ValueIdx

/-- The dimension numbers of a scatter of one scalar per edge into a vector: operand `[N]`, scatter indices
    `[E, 1]`, updates `[E]`; no window axis, the operand's axis inserted, index vector on axis 1. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The dimension numbers of a scatter of one row per edge into a matrix: operand `[N, D]`, scatter indices
    `[E, 1]`, updates `[E, D]`; window axis 1 of the updates, the operand's axis 0 inserted, index vector on axis 1. -/
abbrev rowDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The edges whose index word, read signed, is row `n`. -/
def landing {E w : Nat} (idx : IVec ⟨2, ![E, 1]⟩ w) (n : Nat) : Finset (Fin E) :=
  Finset.univ.filter fun e => (idx (ix2 e 0)).toInt = (n : Int)

/-- An update lands on the operand index `i` exactly when, on every axis, its window start plus its window coordinate
    is `i`'s coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : Int) = ((i a).val : Int) := by
  unfold ScatterDims.resultIdx?
  constructor
  · intro h a
    split at h
    · rename_i hb
      have hv := congrArg Fin.val (congrFun (Option.some.inj h) a)
      simp only at hv
      have := (hb a).1
      omega
    · exact absurd h (by simp)
  · intro h
    have hb : ∀ a, 0 ≤ d.start j idx a + (d.window j a : Int) ∧
        d.start j idx a + (d.window j a : Int) < (s.size a : Int) := by
      intro a
      rw [h a]
      exact ⟨Int.natCast_nonneg _, by exact_mod_cast (i a).isLt⟩
    rw [dif_pos hb]
    congr 1
    funext a
    refine Fin.ext ?_
    show (d.start j idx a + (d.window j a : Int)).toNat = (i a).val
    rw [h a]
    exact Int.toNat_natCast _

/-! ### The vector form's start and window -/

/-- The vector form's window start on the operand's one axis: the edge's index word, read signed. -/
private theorem vec_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (a : Fin 1) :
    (vecDims N E wf).start j idx a = (idx (ix2 (j 0) 0)).toInt := by
  obtain rfl : a = 0 := Subsingleton.elim _ _
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The vector form has no window axis: the window coordinate on the operand's (inserted) axis is zero. -/
private theorem vec_window {N E : Nat} (wf : ScatterDims.WF ⟨1, ![N]⟩ ⟨2, ![E, 1]⟩ ⟨1, ![E]⟩ [] [0] [0] 1)
    (j : (⟨1, ![E]⟩ : Shape).Idx) (a : Fin 1) :
    (vecDims N E wf).window j a = 0 := by
  obtain rfl : a = 0 := Subsingleton.elim _ _
  unfold ScatterDims.window
  have ha : (0 : Fin 1) ∉ (vecDims N E wf).sKept := by
    simp [ScatterDims.sKept, Shape.kept]
  rw [dif_neg ha]

/-- In the vector form the update of edge `j 0` lands on `n` exactly when its index word, read signed, is `n`. -/
private theorem vec_lands_iff {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (n : Fin N) :
    (vecDims N E wf).resultIdx? j idx = some (ix1 n) ↔ (idx (ix2 (j 0) 0)).toInt = (n.val : Int) := by
  rw [resultIdx?_eq_some_iff]
  constructor
  · intro h
    have h0 : (idx (ix2 (j 0) 0)).toInt + ((0 : Nat) : Int) = (n.val : Int) := by
      have := h 0
      rw [vec_start, vec_window] at this
      exact this
    omega
  · intro h a
    obtain rfl : a = 0 := Subsingleton.elim _ _
    rw [vec_start, vec_window]
    show (idx (ix2 (j 0) 0)).toInt + ((0 : Nat) : Int) = (n.val : Int)
    omega

/-! ### The row form's start and window -/

/-- The row form's window start on the operand's row axis: the edge's index word, read signed. -/
private theorem row_start0 {N D E w : Nat} (wf : ScatterDims.WF ⟨2, ![N, D]⟩ ⟨2, ![E, 1]⟩ ⟨2, ![E, D]⟩ [1] [0] [0] 1)
    (j : (⟨2, ![E, D]⟩ : Shape).Idx) (idx : IVec ⟨2, ![E, 1]⟩ w) :
    (rowDims N D E wf).start j idx 0 = (idx (ix2 (j 0) 0)).toInt := by
  unfold ScatterDims.start
  rw [dif_pos (show (0 : Fin 2) ∈ (rowDims N D E wf).scatterDimsToOperandDims from List.mem_singleton.mpr rfl)]
  have hsi : (rowDims N D E wf).siIdx j ⟨List.idxOf (0 : Fin 2) (rowDims N D E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The row form's window start on the operand's column axis, which the index vector does not name: zero. -/
private theorem row_start1 {N D E w : Nat} (wf : ScatterDims.WF ⟨2, ![N, D]⟩ ⟨2, ![E, 1]⟩ ⟨2, ![E, D]⟩ [1] [0] [0] 1)
    (j : (⟨2, ![E, D]⟩ : Shape).Idx) (idx : IVec ⟨2, ![E, 1]⟩ w) :
    (rowDims N D E wf).start j idx 1 = 0 := by
  unfold ScatterDims.start
  have h1 : (1 : Fin 2) ∉ (rowDims N D E wf).scatterDimsToOperandDims := by
    show (1 : Fin 2) ∉ [(0 : Fin 2)]
    decide
  rw [dif_neg h1]

/-- The row form's window coordinate on the operand's (inserted) row axis: zero. -/
private theorem row_window0 {N D E : Nat} (wf : ScatterDims.WF ⟨2, ![N, D]⟩ ⟨2, ![E, 1]⟩ ⟨2, ![E, D]⟩ [1] [0] [0] 1)
    (j : (⟨2, ![E, D]⟩ : Shape).Idx) :
    (rowDims N D E wf).window j 0 = 0 := by
  unfold ScatterDims.window
  have h0 : (0 : Fin 2) ∉ (rowDims N D E wf).sKept := by
    simp [ScatterDims.sKept, Shape.kept]
  rw [dif_neg h0]

/-- The row form's window coordinate on the operand's column axis: the update's column. -/
private theorem row_window1 {N D E : Nat} (wf : ScatterDims.WF ⟨2, ![N, D]⟩ ⟨2, ![E, 1]⟩ ⟨2, ![E, D]⟩ [1] [0] [0] 1)
    (j : (⟨2, ![E, D]⟩ : Shape).Idx) :
    (rowDims N D E wf).window j 1 = (j 1).val := by
  unfold ScatterDims.window
  have h1 : (1 : Fin 2) ∈ (rowDims N D E wf).sKept := by
    simp [ScatterDims.sKept, Shape.kept]
  rw [dif_pos h1]
  rfl

/-- In the row form the update at `(j 0, j 1)` lands on `(n, c)` exactly when the edge's index word, read signed, is `n`
    and the column is `c`. -/
private theorem row_lands_iff {N D E w : Nat} (wf : ScatterDims.WF ⟨2, ![N, D]⟩ ⟨2, ![E, 1]⟩ ⟨2, ![E, D]⟩ [1] [0] [0] 1)
    (j : (⟨2, ![E, D]⟩ : Shape).Idx) (idx : IVec ⟨2, ![E, 1]⟩ w) (n : Fin N) (c : Fin D) :
    (rowDims N D E wf).resultIdx? j idx = some (ix2 n c) ↔
      (idx (ix2 (j 0) 0)).toInt = (n.val : Int) ∧ (j 1).val = c.val := by
  rw [resultIdx?_eq_some_iff]
  constructor
  · intro h
    have h0 : (idx (ix2 (j 0) 0)).toInt + ((0 : Nat) : Int) = (n.val : Int) := by
      have := h 0
      rw [row_start0, row_window0] at this
      exact this
    have h1 : (0 : Int) + (((j 1).val : Nat) : Int) = (c.val : Int) := by
      have := h 1
      rw [row_start1, row_window1] at this
      exact this
    constructor <;> omega
  · rintro ⟨h0, h1⟩ a
    match a with
    | ⟨0, _⟩ =>
      show (rowDims N D E wf).start j idx 0 + (((rowDims N D E wf).window j 0 : Nat) : Int) = (n.val : Int)
      rw [row_start0, row_window0]; omega
    | ⟨1, _⟩ =>
      show (rowDims N D E wf).start j idx 1 + (((rowDims N D E wf).window j 1 : Nat) : Int) = (c.val : Int)
      rw [row_start1, row_window1]; omega

/-- THE VECTOR SCATTER-ADD AT `n`: the operand's entry plus the sum of the updates landing on `n`. -/
theorem scatterAdd_vec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecDims N E wf) x idx upd (ix1 n)
      = x (ix1 n) + ∑ e ∈ landing idx n.val, upd (ix1 e) := by
  show Ideal.hostScatterAdd (vecDims N E wf) x idx upd (ix1 n) = _
  unfold Ideal.hostScatterAdd
  show x (ix1 n) + _ = x (ix1 n) + _
  congr 1
  refine Finset.sum_nbij' (fun j => j 0) (fun e => ix1 e) ?_ ?_ ?_ ?_ ?_
  · intro j hj
    rw [Finset.mem_filter] at hj
    exact Finset.mem_filter.mpr ⟨Finset.mem_univ _, (vec_lands_iff wf j idx n).mp hj.2⟩
  · intro e he
    unfold landing at he
    rw [Finset.mem_filter] at he ⊢
    exact ⟨Finset.mem_univ _, (vec_lands_iff wf (ix1 e) idx n).mpr he.2⟩
  · intro j _
    exact (eq_ix1 j).symm
  · intro e _
    rfl
  · intro j _
    exact congrArg upd (eq_ix1 j)

/-- THE ROW SCATTER-ADD AT `(n, c)`: the operand's entry plus the sum over the edges landing on row `n` of their
    updates' entry `c`. -/
theorem scatterAdd_row_apply {N D E w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ) (n : Fin N) (c : Fin D) :
    Host.scatterAdd (F := Ideal) (rowDims N D E wf) x idx upd (ix2 n c)
      = x (ix2 n c) + ∑ e ∈ landing idx n.val, upd (ix2 e c) := by
  show Ideal.hostScatterAdd (rowDims N D E wf) x idx upd (ix2 n c) = _
  unfold Ideal.hostScatterAdd
  show x (ix2 n c) + _ = x (ix2 n c) + _
  congr 1
  have hcol : ∀ j : (⟨2, ![E, D]⟩ : Shape).Idx, (j 1).val = c.val → ix2 (j 0) c = j := by
    intro j h
    funext a
    match a with
    | ⟨0, _⟩ => rfl
    | ⟨1, _⟩ => exact Fin.ext h.symm
  refine Finset.sum_nbij' (fun j => j 0) (fun e => ix2 e c) ?_ ?_ ?_ ?_ ?_
  · intro j hj
    rw [Finset.mem_filter] at hj
    exact Finset.mem_filter.mpr ⟨Finset.mem_univ _, ((row_lands_iff wf j idx n c).mp hj.2).1⟩
  · intro e he
    unfold landing at he
    rw [Finset.mem_filter] at he ⊢
    exact ⟨Finset.mem_univ _, (row_lands_iff wf (ix2 e c) idx n c).mpr ⟨he.2, rfl⟩⟩
  · intro j hj
    rw [Finset.mem_filter] at hj
    exact hcol j ((row_lands_iff wf j idx n c).mp hj.2).2
  · intro e _
    rfl
  · intro j hj
    rw [Finset.mem_filter] at hj
    exact congrArg upd (hcol j ((row_lands_iff wf j idx n c).mp hj.2).2).symm

end Idealize.ShloMosaic.EdgeScatter

end
-- ==== Proof.LibEdgeGather.lean ====
/-
  Two gathers along the leading axis, read at an index.

  `x[ids]` of a matrix `x : [N, D]` at an integer vector `ids : [E]` lowers to a `stablehlo.gather` over the
  start indices as `[E, 1]` (offset axis 1, the operand's axis 0 collapsed, slice sizes `[1, D]`): result entry
  `(e, c)` is the operand's at row `ids[e]` — read as a signed integer and clamped into `[0, N − 1]`, as the
  gather clamps every start index — and column `c`.

  `x[ids, 0]` of a one-column matrix `x : [N, 1]` lowers to a gather over start indices `[E, 2]` (the pair
  (row, column) per edge; both operand axes collapsed, slice sizes `[1, 1]`): result entry `e` is the operand's at
  the clamped row and — the column axis having extent one — column `0`, whatever the second index word holds.
-/
import Idealize.ShloMosaic.PureOps.ShapeOps
import Idealize.ShloMosaic.Lib.ValueIdx

noncomputable section

namespace Idealize.ShloMosaic.EdgeGather

open Idealize.ShloMosaic Idealize.ShloMosaic.ValueIdx

variable {α : Type}

/-- The row a start-index word names: read signed, clamped into `[0, N − 1]`. -/
def clampRow (N : Nat) (hN : 0 < N) {w : Nat} (b : BitVec w) : Fin N := ⟨min b.toInt.toNat (N - 1), by omega⟩

/-- Dimension numbers of the row gather: operand `[N, D]`, start indices `[E, 1]`, result `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Dimension numbers of the gather of a one-column matrix at (row, column) pairs: operand `[N, 1]`, start
    indices `[E, 2]`, result `[E]`. -/
abbrev pairDims (N E : Nat)
    (wf : GatherDims.WF ⟨2, ![N, 1]⟩ ⟨2, ![E, 2]⟩ ⟨1, ![E]⟩ [] [0, 1] [] [0, 1] [] 1 ![1, 1]) :
    GatherDims ⟨2, ![N, 1]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- THE ROW GATHER AT `(e, c)`: the operand at the clamped row `ids[e]` and column `c`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowDims N D E wf) x idx (ix2 e c) = x (ix2 (clampRow N hN (idx (ix2 e 0))) c) := by
  unfold Host.gather
  congr 1
  funext a
  match a with
  | ⟨0, _⟩ =>
    -- the row axis: collapsed, named by the start index map; the clamped start alone
    refine Fin.ext ?_
    show (rowDims N D E wf).start (ix2 e c) idx 0 + (rowDims N D E wf).batchCoord (ix2 e c) 0
      + (rowDims N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e c) ⟨List.idxOf (0 : Fin 2) (rowDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column axis: the one offset axis, not named by the start index map; the offset coordinate alone
    refine Fin.ext ?_
    show (rowDims N D E wf).start (ix2 e c) idx 1 + (rowDims N D E wf).batchCoord (ix2 e c) 1
      + (rowDims N D E wf).offCoord (ix2 e c) 1 = _
    rw [GatherDims.batchCoord_eq_zero _ _ _ List.not_mem_nil]
    have hst : (rowDims N D E wf).start (ix2 e c) idx 1 = 0 := by
      unfold GatherDims.start
      rw [dif_neg (show (1 : Fin 2) ∉ (rowDims N D E wf).startIndexMap from
        (by decide : (1 : Fin 2) ∉ ([0] : List (Fin 2))))]
    have hk : (1 : Fin 2) ∈ (rowDims N D E wf).sKept :=
      (GatherDims.mem_sKept _ _).mpr ⟨(by decide : (1 : Fin 2) ∉ ([0] : List (Fin 2))), List.not_mem_nil⟩
    have hoff : (rowDims N D E wf).offCoord (ix2 e c) 1 = c.val := by
      unfold GatherDims.offCoord
      rw [dif_pos hk]
      rfl
    rw [hst, hoff]
    simp

/-- THE PAIR GATHER AT `e`: the operand at the clamped row `idx[e, 0]` and column `0`. -/
theorem gather_pair_apply {N E w : Nat} (hN : 0 < N)
    (wf : GatherDims.WF ⟨2, ![N, 1]⟩ ⟨2, ![E, 2]⟩ ⟨1, ![E]⟩ [] [0, 1] [] [0, 1] [] 1 ![1, 1])
    (x : (⟨2, ![N, 1]⟩ : Shape).Idx → α) (idx : IVec ⟨2, ![E, 2]⟩ w) (e : Fin E) :
    Host.gather (pairDims N E wf) x idx (ix1 e) = x (ix2 (clampRow N hN (idx (ix2 e 0))) 0) := by
  unfold Host.gather
  congr 1
  funext a
  match a with
  | ⟨0, _⟩ =>
    -- the row axis: collapsed, first in the start index map; the clamped start alone
    refine Fin.ext ?_
    show (pairDims N E wf).start (ix1 e) idx 0 + (pairDims N E wf).batchCoord (ix1 e) 0
      + (pairDims N E wf).offCoord (ix1 e) 0 = _
    rw [GatherDims.batchCoord_eq_zero _ _ _ List.not_mem_nil,
      GatherDims.offCoord_eq_zero _ _ _ (fun h => ((GatherDims.mem_sKept _ _).mp h).1
        (by decide : (0 : Fin 2) ∈ ([0, 1] : List (Fin 2))))]
    simp only [Nat.add_zero]
    unfold GatherDims.start
    rw [dif_pos (show (0 : Fin 2) ∈ (pairDims N E wf).startIndexMap from
      (by decide : (0 : Fin 2) ∈ ([0, 1] : List (Fin 2))))]
    have hsi : (pairDims N E wf).siIdx (ix1 e) ⟨List.idxOf (0 : Fin 2) (pairDims N E wf).startIndexMap,
        List.idxOf_lt_length_iff.2 (by decide : (0 : Fin 2) ∈ ([0, 1] : List (Fin 2)))⟩ = ix2 e 0 := by
      funext b; refine Fin.ext ?_
      match b with
      | ⟨0, _⟩ => rfl
      | ⟨1, _⟩ => rfl
    rw [hsi]
    rfl
  | ⟨1, _⟩ =>
    -- the column axis: collapsed, of extent one and slice size one, so its start is clamped into [0, 1 − 1]
    refine Fin.ext ?_
    show (pairDims N E wf).start (ix1 e) idx 1 + (pairDims N E wf).batchCoord (ix1 e) 1
      + (pairDims N E wf).offCoord (ix1 e) 1 = _
    rw [GatherDims.batchCoord_eq_zero _ _ _ List.not_mem_nil,
      GatherDims.offCoord_eq_zero _ _ _ (fun h => ((GatherDims.mem_sKept _ _).mp h).1
        (by decide : (1 : Fin 2) ∈ ([0, 1] : List (Fin 2))))]
    have hst : (pairDims N E wf).start (ix1 e) idx 1 = 0 :=
      Nat.le_zero.mp ((pairDims N E wf).start_le (ix1 e) idx 1)
    rw [hst]
    rfl

end Idealize.ShloMosaic.EdgeGather

end
-- ==== Proof.LibVecGather.lean ====
/-
  A gather of single entries of a vector, read at an index.

  `v[ids]` for a vector `v` of extent `N` and one index per edge lowers to a `stablehlo.gather` with the start
  indices as an `[E, 1]` array (index vector on axis 1), the operand's one axis collapsed and named by the start index
  map, slice size one, no offset axis. Entry `e` of the result is the operand at the row the index word `ids[e]` names:
  read as a signed integer and clamped into `[0, N − 1]` — the same clamp as the row gather of a matrix.
-/
import proofs.«108288_j38371237823055_2_alg».proof.Proof.LibEdgeGather

noncomputable section

namespace Idealize.ShloMosaic.VecGather

open Idealize.ShloMosaic Idealize.ShloMosaic.ValueIdx Idealize.ShloMosaic.EdgeGather

variable {α : Type}

/-- Dimension numbers of the entry gather: operand `[N]`, start indices `[E, 1]`, result `[E]`. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER AT `e`: the operand at the clamped row `ids[e]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (clampRow N hN (idx (ix2 e 0)))) := by
  unfold Host.gather
  congr 1
  funext a
  -- the operand has one axis: collapsed, named by the start index map; the clamped start alone
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Idealize.ShloMosaic.VecGather

end
-- ==== Proof.RefAggregate.lean ====
/-
  The reference's graph aggregation at an entry, and the target weight factored out of it.

  For every edge `e` (the given edges followed by one self-loop per node) the reference gathers the source row of the
  projected features and multiplies it by `w[src e] · w[col e]`, the two endpoint weights `w = deg^(-1/2)` (zero where
  the degree is not positive); the rows are then summed into their target nodes. An edge contributes to node `n`
  exactly when its target word, read signed, is `n`; for such an edge the gathered column weight is `w[n]`, whatever
  the gather does with negative or too-large words elsewhere. So entry `(n, k)` of the aggregation is
  `∑_{e → n} xw[src e, k] · (w[src e] · w[n])`, and since `w[n]` is a nonnegative real it factors out of the sum:
  `(∑_{e → n} xw[src e, k] · w[src e]) · w[n]`.
-/
import proofs.«108288_j38371237823055_2_alg».proof.Proof.ReadP
import proofs.«108288_j38371237823055_2_alg».proof.Proof.LibEdgeScatter
import proofs.«108288_j38371237823055_2_alg».proof.Proof.LibEdgeGather
import proofs.«108288_j38371237823055_2_alg».proof.Proof.LibVecGather
import proofs.«108288_j38371237823055_2_alg».proof.Proof.ScaleAlgebra
import Idealize.ShloMosaic.Lib.ValueIdx
import Idealize.ShloMosaic.Lib.DynamicIndex

noncomputable section

namespace Cert.ReferenceIdeal.RefAggregate

open Cert.ReferenceIdeal Cert.ReferenceIdeal.Gen Cert.ReferenceIdeal.ReadP Idealize.ShloMosaic Idealize.ShloMosaic.ValueIdx
open Idealize.ShloMosaic.EdgeScatter (landing)
open Idealize.ShloMosaic.EdgeGather (clampRow)

variable (x0 : (⟨S100000x512, .f32⟩ : BufTy).Contents (Elt Ideal)) (x1 : (⟨S2x3200000, .i32⟩ : BufTy).Contents (Elt Ideal)) (x2 : (⟨S512x16, .f32⟩ : BufTy).Contents (Elt Ideal))

/-- The edges whose target word, read signed, is node `n`. -/
abbrev edgesInto (n : Fin 100000) : Finset (Fin 3300000) := landing (val_main_v43 (F := Ideal) x1) n.val

/-- The source row an edge gathers from: its (wrapped) source word read signed and clamped into the rows. -/
def src (e : Fin 3300000) : Fin 100000 :=
  clampRow 100000 (by decide) (val_main_v37 (F := Ideal) x1 (ix2 e (0 : Fin 1)))

/-- The row the column-weight gather reads for an edge: its (wrapped) target word read signed and clamped. -/
def tgt (e : Fin 3300000) : Fin 100000 :=
  clampRow 100000 (by decide) (val_main_v29 (F := Ideal) x1 (ix2 e (0 : Fin 1)))

/-- Node `r`'s weight: the inverse square root of its degree where the degree is positive, zero elsewhere. -/
abbrev wt (r : Fin 100000) : EReal := val_main_v16 (F := Ideal) x1 (ix1 r)

/-- The projected features `x · W` at `(r, k)`. -/
abbrev xw (r : Fin 100000) (k : Fin 16) : EReal := val_main_v0 (F := Ideal) x0 x2 (ix2 r k)

/-- The reference wraps the source words twice (once for the weights, once for the rows): the same word for each edge. -/
theorem src_word_eq (e : Fin 3300000) :
    val_main_v22 (F := Ideal) x1 (ix2 e (0 : Fin 1)) = val_main_v37 (F := Ideal) x1 (ix2 e (0 : Fin 1)) := by
  rw [val_main_v22_apply, val_main_v37_apply, val_main_v21_apply, val_main_v36_apply, val_main_v18_apply,
    val_main_v33_apply, val_main_v20_apply, val_main_v35_apply, val_main_v17_apply, val_main_v32_apply,
    val_main_v19_apply, val_main_v34_apply, val_main_c_apply, val_main_c_7_apply, val_main_c_4_apply, val_main_c_8_apply]

/-- THE AGGREGATION AT `(n, k)`: the sum over the edges into `n` of the source's projected feature times both weights. -/
theorem out_apply (n : Fin 100000) (k : Fin 16) :
    val_main_v44 (F := Ideal) x0 x1 x2 (ix2 n k)
      = (0 : EReal) + ∑ e ∈ edgesInto x1 n, xw x0 x2 (src x1 e) k * (wt x1 (src x1 e) * wt x1 (tgt x1 e)) := by
  unfold val_main_v44
  refine (EdgeScatter.scatterAdd_row_apply scatter_S100000x16_S3300000x1_S3300000x16_1_0_0_1_wf _ _ _ n k).trans ?_
  have hz : val_main_v42 (F := Ideal) (ix2 n k) = 0 := by
    rw [val_main_v42_apply, val_main_cst_9_apply, Ideal.ofBits_def, Cert.ScaleAlgebra.ofBits_zero]
  rw [hz]
  refine congrArg ((0 : EReal) + ·) (Finset.sum_congr rfl fun e _ => ?_)
  have i40 : idx_main_v39 (idx_main_v40 (ix2 e k)) = ix1 e :=
    funext fun a => Fin.ext (by match a with | ⟨0, _⟩ => rfl)
  have h38 : val_main_v38 (F := Ideal) x0 x1 x2 (ix2 e k) = xw x0 x2 (src x1 e) k := by
    unfold val_main_v38
    exact EdgeGather.gather_rows_apply (by decide) gather_S100000x16_S3300000x1_S3300000x16_1_0_n_n_0_1_116_wf _ _ e k
  have h23 : val_main_v23 (F := Ideal) x1 (ix1 e) = wt x1 (src x1 e) := by
    unfold val_main_v23
    refine (VecGather.gather_vec_apply (by decide) gather_S100000_S3300000x1_S3300000_n_0_n_n_0_1_1_wf _ _ e).trans ?_
    unfold src
    rw [src_word_eq]
  have h30 : val_main_v30 (F := Ideal) x1 (ix1 e) = wt x1 (tgt x1 e) := by
    unfold val_main_v30
    exact VecGather.gather_vec_apply (by decide) gather_S100000_S3300000x1_S3300000_n_0_n_n_0_1_1_wf _ _ e
  rw [val_main_v41_apply, val_main_v40_apply, val_main_v39_apply, i40, val_main_v31_apply, h38, h23, h30]
  rfl

/-- An edge into `n` reads the column weight of row `n`: its target word is a row number, so neither the wrap of
    negative words nor the clamp moves it. -/
theorem tgt_of_into (n : Fin 100000) (e : Fin 3300000) (he : e ∈ edgesInto x1 n) : tgt x1 e = n := by
  have i43 : idx_main_v43 (ix2 e (0 : Fin 1)) = ix1 e := funext fun a => Fin.ext (by match a with | ⟨0, _⟩ => rfl)
  have i29 : idx_main_v29 (ix2 e (0 : Fin 1)) = ix1 e := funext fun a => Fin.ext (by match a with | ⟨0, _⟩ => rfl)
  have hw : (val_main_v7 (F := Ideal) x1 (ix1 e)).toInt = (n.val : Int) := by
    have h := (Finset.mem_filter.mp he).2
    rwa [val_main_v43_apply, i43] at h
  have hsel : val_main_v28 (F := Ideal) x1 (ix1 e) = val_main_v7 (F := Ideal) x1 (ix1 e) :=
    select_slt_zero_of_nonneg (val_main_v7 (F := Ideal) x1) (val_main_v27 (F := Ideal) x1) (val_main_v7 (F := Ideal) x1) (ix1 e)
      (by rw [hw]; exact Int.natCast_nonneg _)
  unfold tgt
  rw [val_main_v29_apply, i29, hsel]
  refine Fin.ext ?_
  show min (val_main_v7 (F := Ideal) x1 (ix1 e)).toInt.toNat (100000 - 1) = n.val
  rw [hw, Int.toNat_natCast]
  have := n.isLt
  omega

/-- A node's weight is a nonnegative real: its degree is a count of edges, and the inverse square root of a count,
    guarded by "positive, else zero", is one. -/
theorem wt_nonneg_real (n : Fin 100000) : 0 ≤ wt x1 n ∧ wt x1 n ≠ ⊤ := by
  have hdeg : val_main_v11 (F := Ideal) x1 (ix1 n)
      = (((landing (val_main_v10 (F := Ideal) x1) n.val).card : ℝ) : EReal) := by
    unfold val_main_v11
    refine (EdgeScatter.scatterAdd_vec_apply scatter_S100000_S3300000x1_S3300000_n_0_0_1_wf _ _ _ n).trans ?_
    simp only [val_main_v9_apply, val_main_cst_0_apply, val_main_v8_apply, val_main_cst_apply, Ideal.ofBits_def,
      Cert.ScaleAlgebra.ofBits_zero, Cert.ScaleAlgebra.ofBits_one]
    exact Cert.ScaleAlgebra.count_real _
  show 0 ≤ val_main_v16 (F := Ideal) x1 (ix1 n) ∧ val_main_v16 (F := Ideal) x1 (ix1 n) ≠ ⊤
  rw [val_main_v16_apply, val_main_v15_apply, hdeg, val_main_v14_apply, val_main_cst_2_apply, val_main_call0_v1_apply,
    val_main_call0_v0_apply, val_main_cst_3_apply, Ideal.ofBits_def, Ideal.ofBits_def, Cert.ScaleAlgebra.ofBits_zero,
    Cert.ScaleAlgebra.ofBits_neg_half, Ideal.hostPowf_def]
  exact Cert.ScaleAlgebra.guarded_rsqrt_nonneg_real _ (val_main_v13 (F := Ideal) x1 (ix1 n))

/-- THE TARGET WEIGHT FACTORED OUT: the aggregation at `(n, k)` is the sum of the source-scaled projected features
    over the edges into `n`, times `n`'s weight. -/
theorem out_eq_scaled (n : Fin 100000) (k : Fin 16) :
    val_main_v44 (F := Ideal) x0 x1 x2 (ix2 n k)
      = ((0 : EReal) + ∑ e ∈ edgesInto x1 n, xw x0 x2 (src x1 e) k * wt x1 (src x1 e)) * wt x1 n := by
  obtain ⟨h0, htop⟩ := wt_nonneg_real x1 n
  rw [out_apply, Cert.ScaleAlgebra.scale_after_sum _ _ _ h0 htop]
  refine congrArg ((0 : EReal) + ·) (Finset.sum_congr rfl fun e he => ?_)
  rw [tgt_of_into x1 n e he]

end Cert.ReferenceIdeal.RefAggregate

end
-- ==== Proof.RefValue.lean ====
/-
  The reference's result at an entry.

  The reference computes the whole network on the host. Read at node `n`, its result is the head applied to the
  node's 16 activations `max (out[n, k] + bg[k], 0)`, where `out` is the graph convolution's aggregation (the stage
  the read-at-an-index module names `val_main_v44`): the three host matrix products are sums over the contracted
  index, the bias rows are spread down the rows, each rectifier is a maximum against a zero constant, and the closing
  `1 / (1 + exp (−x))` is the logistic function on the extended reals.
-/
import proofs.«108288_j38371237823055_2_alg».proof.Proof.ReadP
import proofs.«108288_j38371237823055_2_alg».proof.Proof.MlpHead
import proofs.«108288_j38371237823055_2_alg».proof.Proof.LibPlainDot
import proofs.«108288_j38371237823055_2_alg».proof.Proof.ScaleAlgebra
import Idealize.ShloMosaic.Lib.ValueIdx

noncomputable section

namespace Cert.ReferenceIdeal.RefValue

open Cert.ReferenceIdeal Cert.ReferenceIdeal.ReadP Idealize.ShloMosaic Idealize.ShloMosaic.ValueIdx Cert.MlpHead

variable (x0 : (⟨S100000x512, .f32⟩ : BufTy).Contents (Elt Ideal)) (x1 : (⟨S2x3200000, .i32⟩ : BufTy).Contents (Elt Ideal))
  (x2 : (⟨S512x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal))
  (x6 : (⟨S16x32, .f32⟩ : BufTy).Contents (Elt Ideal)) (x7 : (⟨S32, .f32⟩ : BufTy).Contents (Elt Ideal)) (x8 : (⟨S32x1, .f32⟩ : BufTy).Contents (Elt Ideal)) (x9 : (⟨S1, .f32⟩ : BufTy).Contents (Elt Ideal))

/-- Node `n`'s 16 activations in the reference: its aggregated messages plus the bias, rectified. -/
def activations (n : Fin 100000) : Fin 16 → EReal :=
  fun k => max (val_main_v44 (F := Ideal) x0 x1 x2 (ix2 n k) + x3 (ix1 k)) 0

/-- The first rectifier's output at `(n, k)` is the node's activation `k`. -/
theorem act_apply (n : Fin 100000) (k : Fin 16) :
    val_main_v48 (F := Ideal) x0 x1 x2 x3 (ix2 n k) = activations x0 x1 x2 x3 n k := by
  have i46 : idx_main_v45 (idx_main_v46 (ix2 n k)) = ix1 k :=
    funext fun a => Fin.ext (by match a with | ⟨0, _⟩ => rfl)
  unfold activations
  rw [val_main_v48_apply, val_main_call1_v0_apply, val_main_call1_cst_apply, val_main_v47_apply, val_main_v46_apply,
    val_main_v45_apply, i46]
  simp only [Ideal.ofBits_def, Ideal.addf_def, Ideal.maximumf_def, Cert.ScaleAlgebra.ofBits_zero]

/-- The second layer's rectified output at `(n, i)`. -/
theorem layer1_apply (n : Fin 100000) (i : Fin 16) :
    val_main_v53 (F := Ideal) x0 x1 x2 x3 x4 x5 (ix2 n i)
      = max ((∑ k : Fin 16, val_main_v48 (F := Ideal) x0 x1 x2 x3 (ix2 n k) * x4 (ix2 k i)) + x5 (ix1 i)) 0 := by
  have i51 : idx_main_v50 (idx_main_v51 (ix2 n i)) = ix1 i :=
    funext fun a => Fin.ext (by match a with | ⟨0, _⟩ => rfl)
  have hd : val_main_v49 (F := Ideal) x0 x1 x2 x3 x4 (ix2 n i)
      = ∑ k : Fin 16, val_main_v48 (F := Ideal) x0 x1 x2 x3 (ix2 n k) * x4 (ix2 k i) := by
    unfold val_main_v49
    exact Cert.PlainDot.hostDot_apply dot_S100000x16_S16x16_S100000x16_1_0_0_1_n_n rfl _ _ n i
  rw [val_main_v53_apply, val_main_call2_v0_apply, val_main_call2_cst_apply, val_main_v52_apply, hd, val_main_v51_apply,
    val_main_v50_apply, i51]
  simp only [Ideal.ofBits_def, Ideal.addf_def, Ideal.maximumf_def, Cert.ScaleAlgebra.ofBits_zero]

/-- The third layer's rectified output at `(n, j)`. -/
theorem layer2_apply (n : Fin 100000) (j : Fin 32) :
    val_main_v58 (F := Ideal) x0 x1 x2 x3 x4 x5 x6 x7 (ix2 n j)
      = max ((∑ i : Fin 16, val_main_v53 (F := Ideal) x0 x1 x2 x3 x4 x5 (ix2 n i) * x6 (ix2 i j)) + x7 (ix1 j)) 0 := by
  have i56 : idx_main_v55 (idx_main_v56 (ix2 n j)) = ix1 j :=
    funext fun a => Fin.ext (by match a with | ⟨0, _⟩ => rfl)
  have hd : val_main_v54 (F := Ideal) x0 x1 x2 x3 x4 x5 x6 (ix2 n j)
      = ∑ i : Fin 16, val_main_v53 (F := Ideal) x0 x1 x2 x3 x4 x5 (ix2 n i) * x6 (ix2 i j) := by
    unfold val_main_v54
    exact Cert.PlainDot.hostDot_apply dot_S100000x16_S16x32_S100000x32_1_0_0_1_n_n rfl _ _ n j
  rw [val_main_v58_apply, val_main_call3_v0_apply, val_main_call3_cst_apply, val_main_v57_apply, hd, val_main_v56_apply,
    val_main_v55_apply, i56]
  simp only [Ideal.ofBits_def, Ideal.addf_def, Ideal.maximumf_def, Cert.ScaleAlgebra.ofBits_zero]

/-- The last affine layer's output at node `n`. -/
theorem layer3_apply (n : Fin 100000) :
    val_main_v62 (F := Ideal) x0 x1 x2 x3 x4 x5 x6 x7 x8 x9 (ix2 n (0 : Fin 1))
      = (∑ j : Fin 32, val_main_v58 (F := Ideal) x0 x1 x2 x3 x4 x5 x6 x7 (ix2 n j) * x8 (ix2 j (0 : Fin 1)))
        + x9 (ix1 (0 : Fin 1)) := by
  have i61 : idx_main_v60 (idx_main_v61 (ix2 n (0 : Fin 1))) = ix1 (0 : Fin 1) :=
    funext fun a => Fin.ext (by match a with | ⟨0, _⟩ => rfl)
  have hd : val_main_v59 (F := Ideal) x0 x1 x2 x3 x4 x5 x6 x7 x8 (ix2 n (0 : Fin 1))
      = ∑ j : Fin 32, val_main_v58 (F := Ideal) x0 x1 x2 x3 x4 x5 x6 x7 (ix2 n j) * x8 (ix2 j (0 : Fin 1)) := by
    unfold val_main_v59
    exact Cert.PlainDot.hostDot_apply dot_S100000x32_S32x1_S100000x1_1_0_0_1_n_n rfl _ _ n 0
  rw [val_main_v62_apply, hd, val_main_v61_apply, val_main_v60_apply, i61]
  simp only [Ideal.addf_def]

/-- The closing `1 / (1 + exp (−x))` is the logistic function of the last layer's output. -/
theorem sigmoid_apply (n : Fin 100000) :
    val_main_v68 (F := Ideal) x0 x1 x2 x3 x4 x5 x6 x7 x8 x9 (ix2 n (0 : Fin 1))
      = Ideal.logistic (val_main_v62 (F := Ideal) x0 x1 x2 x3 x4 x5 x6 x7 x8 x9 (ix2 n (0 : Fin 1))) := by
  rw [val_main_v68_apply, val_main_v67_apply, val_main_cst_11_apply, val_main_v66_apply, val_main_v65_apply,
    val_main_cst_10_apply, val_main_v64_apply, val_main_v63_apply]
  simp only [Ideal.ofBits_def, Ideal.addf_def, Ideal.hostDivf_def, Ideal.hostUnary_exp_def, Ideal.hostNegf_def,
    Ideal.negf_def, Cert.ScaleAlgebra.ofBits_one, Ideal.logistic]

/-- THE REFERENCE'S RESULT AT NODE `n`: the head of the node's activations. -/
theorem result_apply (n : Fin 100000) (u : Fin 1) :
    val_main_v68 (F := Ideal) x0 x1 x2 x3 x4 x5 x6 x7 x8 x9 (ix2 n u)
      = head (activations x0 x1 x2 x3 n) x4 (fun a => x5 (ix1 a)) x6 (fun a => x7 (ix1 a)) x8 (x9 (ix1 (0 : Fin 1))) := by
  obtain rfl : u = 0 := Subsingleton.elim _ _
  rw [sigmoid_apply, layer3_apply]
  unfold head
  refine congrArg Ideal.logistic ?_
  refine congrArg (· + x9 (ix1 (0 : Fin 1))) (Finset.sum_congr rfl fun j _ => ?_)
  refine congrArg (· * x8 (ix2 j (0 : Fin 1))) ?_
  rw [layer2_apply]
  refine congrArg (fun s => max (s + x7 (ix1 j)) 0) (Finset.sum_congr rfl fun i _ => ?_)
  refine congrArg (· * x6 (ix2 i j)) ?_
  rw [layer1_apply]
  refine congrArg (fun s => max (s + x5 (ix1 i)) 0) (Finset.sum_congr rfl fun k _ => ?_)
  rw [act_apply]

end Cert.ReferenceIdeal.RefValue

end
-- ==== Proof.KernelValue.lean ====
/-
  The kernel program's result, entry by entry, is the reference's result function of the same arguments.

  Reading the fold through the program's segments from the end: the result buffer is the head kernel's output array,
  the head of each node's activations `max (A[n, k] · w[n] + bg[k], 0)`; the aggregated messages `A[n, k]` are the sum,
  over the edges into `n`, of the projection kernel's output at the edge's source row, `xw[src e, k] · w[src e]` (the
  padding rows of that kernel's inputs are never read: a source row is below 100000). The reference's aggregation at
  `(n, k)` is that same sum times `w[n]` — the target weight factored out — so the activations agree, and with them the
  heads.
-/
import proofs.«108288_j38371237823055_2_alg».proof.Proof.KernelHost
import proofs.«108288_j38371237823055_2_alg».proof.Proof.ProjectionRegion
import proofs.«108288_j38371237823055_2_alg».proof.Proof.HeadRegion
import proofs.«108288_j38371237823055_2_alg».proof.Proof.RefAggregate
import proofs.«108288_j38371237823055_2_alg».proof.Proof.RefValue
import proofs.«108288_j38371237823055_2_alg».proof.Proof.LibEdgeScatter
import proofs.«108288_j38371237823055_2_alg».proof.Proof.LibEdgeGather
import proofs.«108288_j38371237823055_2_alg».proof.Proof.LibKeepdims
import proofs.«108288_j38371237823055_2_alg».proof.Proof.LibPlainDot
import Idealize.ShloMosaic.Lib.ValueLayout
import Idealize.ShloMosaic.Lib.KernelVsHost

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx Cert.KernelIdeal.HostSide Cert.MlpHead
open Cert.ReferenceIdeal.RefAggregate (edgesInto src wt xw)

variable (m : (ℓ : Loc nD τ sig) → Buf (Elt Ideal) ℓ) (ρ : Dev nD → PrngReg)

/-- The padded features at a row below 100000 are the features. -/
theorem padded_features_apply (c : Dev nD) (r : Fin 100000) (k : Fin 512) (r' : Fin 104000) (h : r'.val = r.val) :
    (W6 m ρ c (Proc.devRef .tc main_v17) : FVec Ideal S104000x512 .f32) (ix2 r' k)
      = ((m ((c.tc : Thread nD τ).loc main_arg0)) : FVec Ideal S100000x512 .f32) (ix2 r k) := by
  rw [padded_features]
  refine pad_apply_of_inside _ _ _ _ _ _ _ (ix2 r' k) (ix2 r k) (fun a => ?_)
  match a with
  | ⟨0, _⟩ => show r'.val = 0 + r.val * (0 + 1); omega
  | ⟨1, _⟩ => show k.val = 0 + k.val * (0 + 1); omega

/-- The padded weight column at a row below 100000 is the node's weight. -/
theorem padded_weights_apply (c : Dev nD) (r : Fin 100000) (r' : Fin 104000) (h : r'.val = r.val) :
    (W6 m ρ c (Proc.devRef .tc main_v18) : FVec Ideal S104000x1 .f32) (ix2 r' (0 : Fin 1)) = wt (m ((c.tc : Thread nD τ).loc main_arg1)) r := by
  rw [padded_weights]
  refine (pad_apply_of_inside _ _ _ _ _ _ _ (ix2 r' (0 : Fin 1)) (ix2 r (0 : Fin 1)) (fun a => ?_)).trans ?_
  · match a with
    | ⟨0, _⟩ => show r'.val = 0 + r.val * (0 + 1); omega
    | ⟨1, _⟩ => show (0 : ℕ) = 0 + 0 * (0 + 1); omega
  · exact Cert.Lib.Keepdims.shapeCast_a_a1_apply _ _ r 0

/-- THE PROJECTION KERNEL'S OUTPUT at a row below 100000: the projected feature times the row's weight. -/
theorem projection_apply (c : Dev nD) (r : Fin 100000) (k : Fin 16) (r' : Fin 104000) (h : r'.val = r.val) :
    (W7 m ρ c (Proc.devRef .tc main_v19) : FVec Ideal S104000x16 .f32) (ix2 r' k)
      = xw (m ((c.tc : Thread nD τ).loc main_arg0)) (m ((c.tc : Thread nD τ).loc main_arg2)) r k * wt (m ((c.tc : Thread nD τ).loc main_arg1)) r := by
  have e : W7 m ρ c (Proc.devRef .tc main_v19)
      = Projection.scaledProj (W6 m ρ c (Proc.devRef .tc main_v17)) (W6 m ρ c (Proc.devRef .tc main_arg2))
          (W6 m ρ c (Proc.devRef .tc main_v18)) :=
    (W7_arr m ρ c 3).trans (Projection.final (V6 m ρ) c)
  rw [e, Projection.scaledProj_ix2]
  unfold Projection.rowEntry
  rw [padded_weights_apply m ρ c r r' h, arg2_at_projection]
  refine congrArg (· * wt (m ((c.tc : Thread nD τ).loc main_arg1)) r) ?_
  refine (Finset.sum_congr rfl fun q _ => ?_).trans
    (Cert.PlainDot.hostDot_apply Cert.ReferenceIdeal.dot_S100000x512_S512x16_S100000x16_1_0_0_1_n_n rfl
      (m ((c.tc : Thread nD τ).loc main_arg0)) (m ((c.tc : Thread nD τ).loc main_arg2)) r k).symm
  rw [padded_features_apply m ρ c r q r' h]

/-- THE AGGREGATED MESSAGES at `(n, k)`: the sum over the edges into `n` of the source-scaled projected features. -/
theorem messages_apply (c : Dev nD) (n : Fin 100000) (k : Fin 16) :
    (W8 m ρ c (Proc.devRef .tc main_v30) : FVec Ideal S100000x16 .f32) (ix2 n k)
      = (0 : EReal) + ∑ e ∈ edgesInto (m ((c.tc : Thread nD τ).loc main_arg1)) n, xw (m ((c.tc : Thread nD τ).loc main_arg0)) (m ((c.tc : Thread nD τ).loc main_arg2)) (src (m ((c.tc : Thread nD τ).loc main_arg1)) e) k * wt (m ((c.tc : Thread nD τ).loc main_arg1)) (src (m ((c.tc : Thread nD τ).loc main_arg1)) e) := by
  rw [messages_at_head, col_words, row_words]
  refine (EdgeScatter.scatterAdd_row_apply scatter_S100000x16_S3300000x1_S3300000x16_1_0_0_1_wf _ _ _ n k).trans ?_
  have hz : broadcastInDim S100000x16 ![] bcast_S_S100000x16 (constant (F := Ideal) S_ .f32 0x00000000#32) (ix2 n k) = 0 := by
    show Ideal.ofBits .f32 0x00000000#32 = 0
    exact Cert.ScaleAlgebra.ofBits_zero
  rw [hz]
  refine congrArg ((0 : EReal) + ·) (Finset.sum_congr rfl fun e _ => ?_)
  refine (EdgeGather.gather_rows_apply (by decide) gather_S100000x16_S3300000x1_S3300000x16_1_0_n_n_0_1_116_wf _ _ e k).trans ?_
  refine (slice2_axis0_apply 0 _ _ _ k ⟨(src (m ((c.tc : Thread nD τ).loc main_arg1)) e).val, by have := (src (m ((c.tc : Thread nD τ).loc main_arg1)) e).isLt; omega⟩ (by
    show (src (m ((c.tc : Thread nD τ).loc main_arg1)) e).val = 0 + _
    rw [Nat.zero_add]; rfl)).trans ?_
  exact projection_apply m ρ c (src (m ((c.tc : Thread nD τ).loc main_arg1)) e) k _ rfl

/-- THE KERNEL PROGRAM'S RESULT is the reference's result function of the program's own arguments. -/
theorem kernel_result (c : Dev nD) :
    W9 m ρ c (Proc.devRef .tc main_v35)
      = Cert.ReferenceIdeal.ReadP.val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have e : W9 m ρ c (Proc.devRef .tc main_v35)
      = HeadRegion.headArray (W8 m ρ c (Proc.devRef .tc main_v30)) (W8 m ρ c (Proc.devRef .tc main_v16))
          (W8 m ρ c (Proc.devRef .tc main_v31)) (W8 m ρ c (Proc.devRef .tc main_arg4)) (W8 m ρ c (Proc.devRef .tc main_v32))
          (W8 m ρ c (Proc.devRef .tc main_arg6)) (W8 m ρ c (Proc.devRef .tc main_v33)) (W8 m ρ c (Proc.devRef .tc main_arg8))
          (W8 m ρ c (Proc.devRef .tc main_v34)) :=
    (W9_arr m ρ c 9).trans (HeadRegion.final (V8 m ρ) c)
  rw [e]
  funext i
  obtain ⟨n, u, rfl⟩ : ∃ (n : Fin 100000) (u : Fin 1), i = ix2 n u := ⟨i 0, i 1, eq_ix2 i⟩
  rw [Cert.ReferenceIdeal.RefValue.result_apply]
  show head (HeadRegion.activations (W8 m ρ c (Proc.devRef .tc main_v30)) (W8 m ρ c (Proc.devRef .tc main_v16))
      (W8 m ρ c (Proc.devRef .tc main_v31)) n) (W8 m ρ c (Proc.devRef .tc main_arg4))
      (fun a => (W8 m ρ c (Proc.devRef .tc main_v32) : FVec Ideal S1x16 .f32) (ix2 (0 : Fin 1) a))
      (W8 m ρ c (Proc.devRef .tc main_arg6))
      (fun a => (W8 m ρ c (Proc.devRef .tc main_v33) : FVec Ideal S1x32 .f32) (ix2 (0 : Fin 1) a))
      (W8 m ρ c (Proc.devRef .tc main_arg8))
      ((W8 m ρ c (Proc.devRef .tc main_v34) : FVec Ideal S1x1 .f32) (ix2 (0 : Fin 1) (0 : Fin 1))) = _
  -- the parameters
  have hb1 : (fun a : Fin 16 => (W8 m ρ c (Proc.devRef .tc main_v32) : FVec Ideal S1x16 .f32) (ix2 (0 : Fin 1) a))
      = fun a => ((m ((c.tc : Thread nD τ).loc main_arg5)) : FVec Ideal S16 .f32) (ix1 a) := funext fun a => by
    rw [main_v32_at_head]; exact shapeCast_a_1a_apply _ _ 0 a
  have hb2 : (fun a : Fin 32 => (W8 m ρ c (Proc.devRef .tc main_v33) : FVec Ideal S1x32 .f32) (ix2 (0 : Fin 1) a))
      = fun a => ((m ((c.tc : Thread nD τ).loc main_arg7)) : FVec Ideal S32 .f32) (ix1 a) := funext fun a => by
    rw [main_v33_at_head]; exact shapeCast_a_1a_apply _ _ 0 a
  have hb3 : (W8 m ρ c (Proc.devRef .tc main_v34) : FVec Ideal S1x1 .f32) (ix2 (0 : Fin 1) (0 : Fin 1))
      = ((m ((c.tc : Thread nD τ).loc main_arg9)) : FVec Ideal S1 .f32) (ix1 (0 : Fin 1)) := by
    rw [main_v34_at_head]; exact shapeCast_a_1a_apply _ _ 0 0
  -- the activations
  have hact : HeadRegion.activations (W8 m ρ c (Proc.devRef .tc main_v30)) (W8 m ρ c (Proc.devRef .tc main_v16))
      (W8 m ρ c (Proc.devRef .tc main_v31)) n
      = Cert.ReferenceIdeal.RefValue.activations (m ((c.tc : Thread nD τ).loc main_arg0)) (m ((c.tc : Thread nD τ).loc main_arg1)) (m ((c.tc : Thread nD τ).loc main_arg2)) (m ((c.tc : Thread nD τ).loc main_arg3)) n := funext fun k => by
    unfold HeadRegion.activations Cert.ReferenceIdeal.RefValue.activations
    rw [messages_apply m ρ c n k, Cert.ReferenceIdeal.RefAggregate.out_eq_scaled]
    have hw : (W8 m ρ c (Proc.devRef .tc main_v16) : FVec Ideal S100000x1 .f32) (ix2 n (0 : Fin 1)) = wt (m ((c.tc : Thread nD τ).loc main_arg1)) n := by
      rw [weights_at_head]; exact Cert.Lib.Keepdims.shapeCast_a_a1_apply _ _ n 0
    have hbg : (W8 m ρ c (Proc.devRef .tc main_v31) : FVec Ideal S1x16 .f32) (ix2 (0 : Fin 1) k)
        = ((m ((c.tc : Thread nD τ).loc main_arg3)) : FVec Ideal S16 .f32) (ix1 k) := by
      rw [main_v31_at_head]; exact shapeCast_a_1a_apply _ _ 0 k
    rw [hw, hbg]
  rw [hb1, hb2, hb3, hact, arg4_at_head, arg6_at_head, arg8_at_head]

end Cert.KernelIdeal.Result

end
-- ==== Proof.lean ====
/-
  A two-layer graph-convolution classifier: the kernel program against the plain reference, on the extended reals.

  Both programs compute, for a graph of 100000 nodes with 512 features each and 3200000 edges plus one self-loop per
  node, `sigmoid (W3ᵀ relu (W2ᵀ relu (W1ᵀ relu (Â · (X Wg) + bg) + b1) + b2) + b3)` with
  `Â = D^(-1/2) (A + I) D^(-1/2)`, `D` the degrees. The reference scales every edge's message by both endpoint weights
  `w = deg^(-1/2)` before summing the messages into their targets, all on the host. The kernel program scales the
  projected features by the source weight inside a projection kernel (13 row blocks of the zero-padded features), sums
  the gathered rows into their targets on the host, and multiplies by the target weight inside a second kernel that
  also applies the three dense layers and the logistic (10 row blocks).

  The two arrangements agree because the target weight is common to every message landing on a node and is a
  nonnegative real — an inverse square root of a count, or zero — so it factors out of the sum on the extended reals;
  matrix products are sums over the contracted index in both programs, a kernel's logistic is the host's
  `1 / (1 + exp (−x))`, and padding rows are never gathered. No finiteness of the inputs is used.

  The modules: `ScaleAlgebra` (the factoring), `MlpHead` (the head on one node, a dense layer at an entry),
  `ProjectionRegion` and `HeadRegion` (each kernel's output array as one function of its input arrays),
  `KernelRun` (the program's run with the result buffer kept), `KernelHost` (the host stretches in the reference's
  vocabulary), `RefValue` and `RefAggregate` (the reference at an entry), `KernelValue` (the two results are one
  function of the arguments). `RunP` / `ReadP` are the reference's run and its read-at-an-index lemmas.
-/
import proofs.«108288_j38371237823055_2_alg».proof.Defs
import proofs.«108288_j38371237823055_2_alg».proof.Proof.Gen.Kernel
import proofs.«108288_j38371237823055_2_alg».proof.Proof.Gen.Kernel.Skeleton
import proofs.«108288_j38371237823055_2_alg».proof.Proof.Gen.Kernel.Launch
import proofs.«108288_j38371237823055_2_alg».proof.Proof.Gen.Kernel.Points
import proofs.«108288_j38371237823055_2_alg».proof.Proof.Gen.Kernel.Frame
import proofs.«108288_j38371237823055_2_alg».proof.Proof.Gen.KernelIdeal
import proofs.«108288_j38371237823055_2_alg».proof.Proof.Gen.KernelIdeal.Skeleton
import proofs.«108288_j38371237823055_2_alg».proof.Proof.Gen.KernelIdeal.Launch
import proofs.«108288_j38371237823055_2_alg».proof.Proof.Gen.KernelIdeal.Points
import proofs.«108288_j38371237823055_2_alg».proof.Proof.Gen.KernelIdeal.Frame
import proofs.«108288_j38371237823055_2_alg».proof.Proof.Gen.ReferenceIdeal
import proofs.«108288_j38371237823055_2_alg».proof.Proof.Gen.Pre_finite_inputs
import proofs.«108288_j38371237823055_2_alg».proof.Proof.RunP
import proofs.«108288_j38371237823055_2_alg».proof.Proof.ReadP
import proofs.«108288_j38371237823055_2_alg».proof.Proof.KernelRun
import proofs.«108288_j38371237823055_2_alg».proof.Proof.KernelValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernel_ideal : Cert.frame_KernelIdeal := fun m ρ _ => Cert.KernelIdeal.Gen.frame m ρ

/-- The idealized reference runs and leaves its arguments as launched: its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the reference's result function of the
    arguments in their result buffers. -/
theorem algebraic : Cert.algebraic_KernelIdeal_ReferenceIdeal := by
  intro m ρ m' ρ' _ hagree
  refine ⟨fun c => Cert.ReferenceIdeal.ReadP.val_main_v68 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    ?_, ?_⟩
  · exact (θ_run Cert.KernelIdeal.defs _ _).mono
      (fun r h c => ⟨(h c).1.trans (Cert.KernelIdeal.Result.kernel_result m ρ c), (h c).2⟩)
      (Cert.KernelIdeal.Whole.run_result m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7, a8, a9⟩ := hagree c
    rw [Cert.ReferenceIdeal.ReadP.val_main_v68_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
